-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S99999 : Shape := ⟨1, ![99999]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg9 : FVec F S512 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg6 : FVec F S1536x512 .f32) (main_arg7 : FVec F S1536 .f32) (main_arg8 : FVec F S512x512 .f32) (main_arg9 : FVec F S512 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536x512 .f32 := Host.absf main_arg6
  let main_cst_6 : FVec F S_ .f32 := constant S_ .f32 0x7F800000#32
  let main_v20 : FVec F S1536x512 .f32 := broadcastInDim S1536x512 ![] bcast_S_S1536x512 main_cst_6
  let main_v21 : IVec S1536x512 1 := cmpf .olt main_v19 main_v20
  let main_c_7 : IVec S_ 1 := constantI S_ 1 1#1
  let main_v22 : IVec S_ 1 := (fun x v => Host.reduce IntOp.andi x v reducesTo_S1536x512_S_d0_1 h_S_) main_v21 main_c_7
  let main_v23 : IVec S_ 1 := andi main_v18 main_v22
  let main_v24 : FVec F S1536 .f32 := Host.absf main_arg7
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S512x512 .f32 := Host.absf main_arg8
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg9 main_v33

def fn {F : FTy → Type} [FloatOps F] (main_arg0 : FVec F S100000x512 .f32) (main_arg1 : FVec F S100000x512 .f32) (main_arg2 : FVec F S100000x512 .f32) (main_arg3 : IVec S99999 32) (main_arg4 : IVec S99999 32) (main_arg5 : FVec F S1536x512 .f32) (main_arg6 : FVec F S1536x512 .f32) (main_arg7 : FVec F S1536 .f32) (main_arg8 : FVec F S512x512 .f32) (main_arg9 : FVec F S512 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x512 .f32 := Host.absf main_arg1
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_v9 : FVec F S100000x512 .f32 := Host.absf main_arg2
  let main_cst_2 : FVec F S_ .f32 := constant S_ .f32 0x7F800000#32
  let main_v10 : FVec F S100000x512 .f32 := broadcastInDim S100000x512 ![] bcast_S_S100000x512 main_cst_2
  let main_v11 : IVec S100000x512 1 := cmpf .olt main_v9 main_v10
  let main_c_3 : IVec S_ 1 := constantI S_ 1 1#1
  let main_v12 : IVec S_ 1 := (fun x v => Host.reduce IntOp.andi x v reducesTo_S100000x512_S_d0_1 h_S_) main_v11 main_c_3
  let main_v13 : IVec S_ 1 := andi main_v8 main_v12
  let main_v14 : FVec F S1536x512 .f32 := Host.absf main_arg5
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg6 main_arg7 main_arg8 main_arg9 main_v13 main_v16
-- ==== Kernel.lean ====
abbrev S100000x512 : Shape := ⟨2, ![100000, 512]⟩
abbrev S99999 : Shape := ⟨1, ![99999]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S99999x1 : Shape := ⟨2, ![99999, 1]⟩
abbrev S99999x512 : Shape := ⟨2, ![99999, 512]⟩
abbrev S100352x512 : Shape := ⟨2, ![100352, 512]⟩
abbrev S1x512 : Shape := ⟨2, ![1, 512]⟩
abbrev S100000 : Shape := ⟨1, ![100000]⟩
abbrev S100000x1 : Shape := ⟨2, ![100000, 1]⟩
abbrev S512x1536 : Shape := ⟨2, ![512, 1536]⟩
abbrev S1x1536 : Shape := ⟨2, ![1, 1536]⟩
abbrev S1024x512 : Shape := ⟨2, ![1024, 512]⟩
abbrev S400x512 : Shape := ⟨2, ![400, 512]⟩
abbrev S400x1 : Shape := ⟨2, ![400, 1]⟩
abbrev S400x1536 : Shape := ⟨2, ![400, 1536]⟩

abbrev nBuf : Space → Nat
  | .hbm => 62
  | .vmem => 23
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S100000x512, .f32⟩
  | .hbm, ⟨3, _⟩ => ⟨S99999, .i32⟩
  | .hbm, ⟨4, _⟩ => ⟨S99999, .i32⟩
  | .hbm, ⟨5, _⟩ => ⟨S1536x512, .f32⟩
  | .hbm, ⟨6, _⟩ => ⟨S1536x512, .f32⟩
  | .hbm, ⟨7, _⟩ => ⟨S1536, .f32⟩
  | .hbm, ⟨8, _⟩ => ⟨S512x512, .f32⟩
  | .hbm, ⟨9, _⟩ => ⟨S512, .f32⟩
  | .hbm, ⟨10, _⟩ => ⟨S_, .i32⟩
  | .hbm, ⟨11, _⟩ => ⟨S99999, .i32⟩
  | .hbm, ⟨12, _⟩ => ⟨S99999, .i1⟩
  | .hbm, ⟨13, _⟩ => ⟨S_, .i32⟩
  | .hbm, ⟨14, _⟩ => ⟨S99999, .i32⟩
  | .hbm, ⟨15, _⟩ => ⟨S99999, .i32⟩
  | .hbm, ⟨16, _⟩ => ⟨S99999, .i32⟩
  | .hbm, ⟨17, _⟩ => ⟨S99999x1, .i32⟩
  | .hbm, ⟨18, _⟩ => ⟨S99999x512, .f32⟩
  | .hbm, ⟨19, _⟩ => ⟨S_, .i32⟩
  | .hbm, ⟨20, _⟩ => ⟨S99999, .i32⟩
  | .hbm, ⟨21, _⟩ => ⟨S99999, .i1⟩
  | .hbm, ⟨22, _⟩ => ⟨S_, .i32⟩
  | .hbm, ⟨23, _⟩ => ⟨S99999, .i32⟩
  | .hbm, ⟨24, _⟩ => ⟨S99999, .i32⟩
  | .hbm, ⟨25, _⟩ => ⟨S99999, .i32⟩
  | .hbm, ⟨26, _⟩ => ⟨S99999x1, .i32⟩
  | .hbm, ⟨27, _⟩ => ⟨S99999x512, .f32⟩
  | .hbm, ⟨28, _⟩ => ⟨S_, .i32⟩
  | .hbm, ⟨29, _⟩ => ⟨S_, .f32⟩
  | .hbm, ⟨30, _⟩ => ⟨S100352x512, .f32⟩
  | .hbm, ⟨31, _⟩ => ⟨S_, .i32⟩
  | .hbm, ⟨32, _⟩ => ⟨S_, .f32⟩
  | .hbm, ⟨33, _⟩ => ⟨S100352x512, .f32⟩
  | .hbm, ⟨34, _⟩ => ⟨S512x512, .f32⟩
  | .hbm, ⟨35, _⟩ => ⟨S1x512, .f32⟩
  | .hbm, ⟨36, _⟩ => ⟨S100352x512, .f32⟩
  | .hbm, ⟨37, _⟩ => ⟨S99999x512, .f32⟩
  | .hbm, ⟨38, _⟩ => ⟨S_, .f32⟩
  | .hbm, ⟨39, _⟩ => ⟨S100000x512, .f32⟩
  | .hbm, ⟨40, _⟩ => ⟨S99999x1, .i32⟩
  | .hbm, ⟨41, _⟩ => ⟨S100000x512, .f32⟩
  | .hbm, ⟨42, _⟩ => ⟨S_, .f32⟩
  | .hbm, ⟨43, _⟩ => ⟨S100000x512, .f32⟩
  | .hbm, ⟨44, _⟩ => ⟨S99999x1, .i32⟩
  | .hbm, ⟨45, _⟩ => ⟨S100000x512, .f32⟩
  | .hbm, ⟨46, _⟩ => ⟨S_, .f32⟩
  | .hbm, ⟨47, _⟩ => ⟨S99999, .f32⟩
  | .hbm, ⟨48, _⟩ => ⟨S_, .f32⟩
  | .hbm, ⟨49, _⟩ => ⟨S100000, .f32⟩
  | .hbm, ⟨50, _⟩ => ⟨S99999x1, .i32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .i1⟩
  | .hbm, ⟨55, _⟩ => ⟨S100000, .f32⟩
  | .hbm, ⟨56, _⟩ => ⟨S100000x1, .f32⟩
  | .hbm, ⟨57, _⟩ => ⟨S512x1536, .f32⟩
  | .hbm, ⟨58, _⟩ => ⟨S512x1536, .f32⟩
  | .hbm, ⟨59, _⟩ => ⟨S1x1536, .f32⟩
  | .hbm, ⟨60, _⟩ => ⟨S100000x512, .f32⟩
  | .hbm, ⟨61, _⟩ => ⟨S100000x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S400x512, .f32⟩
  | .local _ .vmem, ⟨9, _⟩ => ⟨S400x512, .f32⟩
  | .local _ .vmem, ⟨10, _⟩ => ⟨S400x512, .f32⟩
  | .local _ .vmem, ⟨11, _⟩ => ⟨S400x512, .f32⟩
  | .local _ .vmem, ⟨12, _⟩ => ⟨S400x512, .f32⟩
  | .local _ .vmem, ⟨13, _⟩ => ⟨S400x512, .f32⟩
  | .local _ .vmem, ⟨14, _⟩ => ⟨S400x1, .f32⟩
  | .local _ .vmem, ⟨15, _⟩ => ⟨S400x1, .f32⟩
  | .local _ .vmem, ⟨16, _⟩ => ⟨S512x1536, .f32⟩
  | .local _ .vmem, ⟨17, _⟩ => ⟨S512x1536, .f32⟩
  | .local _ .vmem, ⟨18, _⟩ => ⟨S1x1536, .f32⟩
  | .local _ .vmem, ⟨19, _⟩ => ⟨S400x512, .f32⟩
  | .local _ .vmem, ⟨20, _⟩ => ⟨S400x512, .f32⟩
  | .local _ .vmem, ⟨21, _⟩ => ⟨S400x512, .f32⟩
  | .local _ .vmem, ⟨22, _⟩ => ⟨S400x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_c_1 : Ref sig .tc := ⟨.hbm, 19, rfl⟩
abbrev main_call0_v7 : Ref sig .tc := ⟨.hbm, 20, rfl⟩
abbrev main_call0_v8 : Ref sig .tc := ⟨.hbm, 21, rfl⟩
abbrev main_call0_c_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_c_3 : Ref sig .tc := ⟨.hbm, 28, rfl⟩
abbrev main_call0_call0_v0 : Ref sig .tc := ⟨.hbm, 29, rfl⟩
abbrev main_call0_v14 : Ref sig .tc := ⟨.hbm, 30, rfl⟩
abbrev main_call0_c_4 : Ref sig .tc := ⟨.hbm, 31, rfl⟩
abbrev main_call0_call1_v0 : Ref sig .tc := ⟨.hbm, 32, rfl⟩
abbrev main_call0_v15 : Ref sig .tc := ⟨.hbm, 33, rfl⟩
abbrev main_call0_v16 : Ref sig .tc := ⟨.hbm, 34, rfl⟩
abbrev main_call0_v17 : Ref sig .tc := ⟨.hbm, 35, rfl⟩
abbrev main_call0_v18 : Ref sig .tc := ⟨.hbm, 36, rfl⟩
abbrev main_call0_v19 : Ref sig .tc := ⟨.hbm, 37, rfl⟩
abbrev main_call0_cst : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_cst_5 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_cst_6 : Ref sig .tc := ⟨.hbm, 46, rfl⟩
abbrev main_call0_v26 : Ref sig .tc := ⟨.hbm, 47, rfl⟩
abbrev main_call0_cst_7 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_cst_8 : Ref sig .tc := ⟨.hbm, 52, rfl⟩
abbrev main_call0_v30 : Ref sig .tc := ⟨.hbm, 53, rfl⟩
abbrev main_call0_v31 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_v35 : Ref sig .tc := ⟨.hbm, 58, rfl⟩
abbrev main_call0_v36 : Ref sig .tc := ⟨.hbm, 59, rfl⟩
abbrev main_v0_0 : Ref sig .tc := ⟨.hbm, 60, rfl⟩
abbrev main_v0_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S512x1536 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x1536 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1536 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S400x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S400x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S99999 : S_.BroadcastsInDim S99999 (![] : Fin 0 → Fin S99999.rank)
  bcast_S99999_S99999x1_0 : S99999.BroadcastsInDim S99999x1 (![0] : Fin 1 → Fin S99999x1.rank)
  pads_S99999x512_S100352x512_03530_000 : S99999x512.Pads (![0, 0] : Fin 2 → Nat) ![353, 0] ![0, 0] S100352x512
  h_S_ : 0 < S_.numel
  transposes_S512x512_S512x512_1_0 : S512x512.Transposes [1, 0] S512x512
  shapeCasts_S512_S1x512 : S512.ShapeCasts S1x512
  slices_S100352x512_S99999x512_0_0 : S100352x512.Slices ![0, 0] S99999x512
  bcast_S_S100000x512 : S_.BroadcastsInDim S100000x512 (![] : Fin 0 → Fin S100000x512.rank)
  bcast_S_S100000 : S_.BroadcastsInDim S100000 (![] : Fin 0 → Fin S100000.rank)
  shapeCasts_S100000_S100000x1 : S100000.ShapeCasts S100000x1
  transposes_S1536x512_S512x1536_1_0 : S1536x512.Transposes [1, 0] S512x1536
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  broadcasts_S400x1_S400x1536 : S400x1.Broadcasts S400x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S400x1536 : S1x1536.Broadcasts S400x1536
  slices_S400x1536_o0_0_S400x512 : S400x1536.Slices ![0, 0] S400x512
  slices_S400x1536_o0_512_S400x512 : S400x1536.Slices ![0, 512] S400x512
  slices_S400x1536_o0_1024_S400x512 : S400x1536.Slices ![0, 1024] S400x512
  broadcasts_S400x1_S400x512 : S400x1.Broadcasts S400x512
  gather_S100000x512_S99999x1_S99999x512_1_0_n_n_0_1_1512_wf : GatherDims.WF S100000x512 S99999x1 S99999x512 [1] [0] [] [0] [] 1 ![1, 512]
  scatter_S100000x512_S99999x1_S99999x512_1_0_0_1_wf : ScatterDims.WF S100000x512 S99999x1 S99999x512 [1] [0] [0] 1
  scatter_S100000_S99999x1_S99999_n_0_0_1_wf : ScatterDims.WF S100000 S99999x1 S99999 [] [0] [0] 1
  dot_S1024x512_S512x512_S1024x512_1_0_0_1_n_n_wf : DotDims.WF S1024x512 S512x512 S1024x512 [1] [0] [0] [1] [] []
  dot_S400x512_S512x1536_S400x1536_1_0_0_1_n_n_wf : DotDims.WF S400x512 S512x1536 S400x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S100352x512.size a
  hwx0_0 : ∀ i : grid0.Coords, EltTy.bits .f32 = 32 ∨ (Rect.block (s := S100352x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S100352x512.size a
  hwx0_1 : ∀ i : grid0.Coords, EltTy.bits .f32 = 32 ∨ (Rect.block (s := S100352x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S100352x512.size a
  hwx0_4 : ∀ i : grid0.Coords, EltTy.bits .f32 = 32 ∨ (Rect.block (s := S100352x512) S1024x512.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x512.size a ≤ S100000x512.size a
  hwx1_0 : ∀ i : grid1.Coords, EltTy.bits .f32 = 32 ∨ (Rect.block (s := S100000x512) S400x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x512.size a ≤ S100000x512.size a
  hwx1_1 : ∀ i : grid1.Coords, EltTy.bits .f32 = 32 ∨ (Rect.block (s := S100000x512) S400x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x512.size a ≤ S100000x512.size a
  hwx1_2 : ∀ i : grid1.Coords, EltTy.bits .f32 = 32 ∨ (Rect.block (s := S100000x512) S400x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x1.size a ≤ S100000x1.size a
  hwx1_3 : ∀ i : grid1.Coords, EltTy.bits .f32 = 32 ∨ (Rect.block (s := S100000x1) S400x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x1536.size a ≤ S512x1536.size a
  hwx1_4 : ∀ i : grid1.Coords, EltTy.bits .f32 = 32 ∨ (Rect.block (s := S512x1536) S512x1536.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x1536.size a ≤ S512x1536.size a
  hwx1_5 : ∀ i : grid1.Coords, EltTy.bits .f32 = 32 ∨ (Rect.block (s := S512x1536) S512x1536.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1536.size a ≤ S1x1536.size a
  hwx1_6 : ∀ i : grid1.Coords, EltTy.bits .f32 = 32 ∨ (Rect.block (s := S1x1536) S1x1536.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x512.size a ≤ S100000x512.size a
  hwx1_7 : ∀ i : grid1.Coords, EltTy.bits .f32 = 32 ∨ (Rect.block (s := S100000x512) S400x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S400x512.size a ≤ S100000x512.size a
  hwx1_8 : ∀ i : grid1.Coords, EltTy.bits .f32 = 32 ∨ (Rect.block (s := S100000x512) S400x512.size (cc1_transform_8 i) (hinb1_8 i)).WholeWords (EltTy.packing .f32)

variable [Facts₀]

def gather_S100000x512_S99999x1_S99999x512_1_0_n_n_0_1_1512 : GatherDims S100000x512 S99999x1 S99999x512 where
  offsetDims := [1]
  collapsedSliceDims := [0]
  operandBatchingDims := []
  startIndicesBatchingDims := []
  startIndexMap := [0]
  indexVectorDim := 1
  sliceSizes := ![1, 512]
  wf := gather_S100000x512_S99999x1_S99999x512_1_0_n_n_0_1_1512_wf
def scatter_S100000x512_S99999x1_S99999x512_1_0_0_1 : ScatterDims S100000x512 S99999x1 S99999x512 where
  updateWindowDims := [1]
  insertedWindowDims := [0]
  scatterDimsToOperandDims := [0]
  indexVectorDim := 1
  wf := scatter_S100000x512_S99999x1_S99999x512_1_0_0_1_wf
def scatter_S100000_S99999x1_S99999_n_0_0_1 : ScatterDims S100000 S99999x1 S99999 where
  updateWindowDims := []
  insertedWindowDims := [0]
  scatterDimsToOperandDims := [0]
  indexVectorDim := 1
  wf := scatter_S100000_S99999x1_S99999_n_0_0_1_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S400x512_S512x1536_S400x1536_1_0_0_1_n_n : DotDims S400x512 S512x1536 S400x1536 where
  lhsContracting := [1]
  rhsContracting := [0]
  lhsNonContracting := [0]
  rhsNonContracting := [1]
  lhsBatch := []
  rhsBatch := []
  wf := dot_S400x512_S512x1536_S400x1536_1_0_0_1_n_n_wf

abbrev win0_0 : Pipeline.Window sig grid0 :=
  Pipeline.Window.ofSpec (Memref.whole main_call0_v14) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v17) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v18) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S400x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v22) S400x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S400x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v33) S400x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v35) S512x1536.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v34) S512x1536.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v36) S1x1536.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v0_0) S400x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0_1) S400x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x512 : Shape := ⟨2, ![100000, 512]⟩
abbrev S99999 : Shape := ⟨1, ![99999]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S99999x1 : Shape := ⟨2, ![99999, 1]⟩
abbrev S99999x512 : Shape := ⟨2, ![99999, 512]⟩
abbrev S1x512 : Shape := ⟨2, ![1, 512]⟩
abbrev S100000 : Shape := ⟨1, ![100000]⟩
abbrev S100000x1 : Shape := ⟨2, ![100000, 1]⟩
abbrev S512x1536 : Shape := ⟨2, ![512, 1536]⟩
abbrev S100000x1536 : Shape := ⟨2, ![100000, 1536]⟩
abbrev S1x1536 : Shape := ⟨2, ![1, 1536]⟩

abbrev nBuf : Space → Nat
  | .hbm => 98
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x512, .f32⟩
  | .hbm, ⟨2, _⟩ => ⟨S100000x512, .f32⟩
  | .hbm, ⟨3, _⟩ => ⟨S99999, .i32⟩
  | .hbm, ⟨4, _⟩ => ⟨S99999, .i32⟩
  | .hbm, ⟨5, _⟩ => ⟨S1536x512, .f32⟩
  | .hbm, ⟨6, _⟩ => ⟨S1536x512, .f32⟩
  | .hbm, ⟨7, _⟩ => ⟨S1536, .f32⟩
  | .hbm, ⟨8, _⟩ => ⟨S512x512, .f32⟩
  | .hbm, ⟨9, _⟩ => ⟨S512, .f32⟩
  | .hbm, ⟨10, _⟩ => ⟨S_, .i32⟩
  | .hbm, ⟨11, _⟩ => ⟨S99999, .i32⟩
  | .hbm, ⟨12, _⟩ => ⟨S99999, .i1⟩
  | .hbm, ⟨13, _⟩ => ⟨S_, .i32⟩
  | .hbm, ⟨14, _⟩ => ⟨S99999, .i32⟩
  | .hbm, ⟨15, _⟩ => ⟨S99999, .i32⟩
  | .hbm, ⟨16, _⟩ => ⟨S99999, .i32⟩
  | .hbm, ⟨17, _⟩ => ⟨S99999x1, .i32⟩
  | .hbm, ⟨18, _⟩ => ⟨S99999x512, .f32⟩
  | .hbm, ⟨19, _⟩ => ⟨S_, .i32⟩
  | .hbm, ⟨20, _⟩ => ⟨S99999, .i32⟩
  | .hbm, ⟨21, _⟩ => ⟨S99999, .i1⟩
  | .hbm, ⟨22, _⟩ => ⟨S_, .i32⟩
  | .hbm, ⟨23, _⟩ => ⟨S99999, .i32⟩
  | .hbm, ⟨24, _⟩ => ⟨S99999, .i32⟩
  | .hbm, ⟨25, _⟩ => ⟨S99999, .i32⟩
  | .hbm, ⟨26, _⟩ => ⟨S99999x1, .i32⟩
  | .hbm, ⟨27, _⟩ => ⟨S99999x512, .f32⟩
  | .hbm, ⟨28, _⟩ => ⟨S512x512, .f32⟩
  | .hbm, ⟨29, _⟩ => ⟨S99999x512, .f32⟩
  | .hbm, ⟨30, _⟩ => ⟨S1x512, .f32⟩
  | .hbm, ⟨31, _⟩ => ⟨S99999x512, .f32⟩
  | .hbm, ⟨32, _⟩ => ⟨S99999x512, .f32⟩
  | .hbm, ⟨33, _⟩ => ⟨S99999x512, .f32⟩
  | .hbm, ⟨34, _⟩ => ⟨S99999x512, .f32⟩
  | .hbm, ⟨35, _⟩ => ⟨S_, .f32⟩
  | .hbm, ⟨36, _⟩ => ⟨S99999x512, .f32⟩
  | .hbm, ⟨37, _⟩ => ⟨S99999x512, .f32⟩
  | .hbm, ⟨38, _⟩ => ⟨S_, .f32⟩
  | .hbm, ⟨39, _⟩ => ⟨S99999x512, .f32⟩
  | .hbm, ⟨40, _⟩ => ⟨S99999x512, .f32⟩
  | .hbm, ⟨41, _⟩ => ⟨S_, .f32⟩
  | .hbm, ⟨42, _⟩ => ⟨S100000x512, .f32⟩
  | .hbm, ⟨43, _⟩ => ⟨S99999x1, .i32⟩
  | .hbm, ⟨44, _⟩ => ⟨S100000x512, .f32⟩
  | .hbm, ⟨45, _⟩ => ⟨S99999x512, .f32⟩
  | .hbm, ⟨46, _⟩ => ⟨S_, .f32⟩
  | .hbm, ⟨47, _⟩ => ⟨S100000x512, .f32⟩
  | .hbm, ⟨48, _⟩ => ⟨S99999x1, .i32⟩
  | .hbm, ⟨49, _⟩ => ⟨S100000x512, .f32⟩
  | .hbm, ⟨50, _⟩ => ⟨S_, .f32⟩
  | .hbm, ⟨51, _⟩ => ⟨S99999, .f32⟩
  | .hbm, ⟨52, _⟩ => ⟨S_, .f32⟩
  | .hbm, ⟨53, _⟩ => ⟨S100000, .f32⟩
  | .hbm, ⟨54, _⟩ => ⟨S99999x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .i1⟩
  | .hbm, ⟨59, _⟩ => ⟨S100000x1, .i1⟩
  | .hbm, ⟨60, _⟩ => ⟨S512x1536, .f32⟩
  | .hbm, ⟨61, _⟩ => ⟨S100000x1536, .f32⟩
  | .hbm, ⟨62, _⟩ => ⟨S512x1536, .f32⟩
  | .hbm, ⟨63, _⟩ => ⟨S100000x1536, .f32⟩
  | .hbm, ⟨64, _⟩ => ⟨S100000x1536, .i1⟩
  | .hbm, ⟨65, _⟩ => ⟨S100000x1536, .f32⟩
  | .hbm, ⟨66, _⟩ => ⟨S1x1536, .f32⟩
  | .hbm, ⟨67, _⟩ => ⟨S100000x1536, .f32⟩
  | .hbm, ⟨68, _⟩ => ⟨S100000x1536, .f32⟩
  | .hbm, ⟨69, _⟩ => ⟨S100000x512, .f32⟩
  | .hbm, ⟨70, _⟩ => ⟨S100000x512, .f32⟩
  | .hbm, ⟨71, _⟩ => ⟨S100000x512, .f32⟩
  | .hbm, ⟨72, _⟩ => ⟨S100000x512, .f32⟩
  | .hbm, ⟨73, _⟩ => ⟨S100000x512, .f32⟩
  | .hbm, ⟨74, _⟩ => ⟨S_, .f32⟩
  | .hbm, ⟨75, _⟩ => ⟨S100000x512, .f32⟩
  | .hbm, ⟨76, _⟩ => ⟨S100000x512, .f32⟩
  | .hbm, ⟨77, _⟩ => ⟨S_, .f32⟩
  | .hbm, ⟨78, _⟩ => ⟨S100000x512, .f32⟩
  | .hbm, ⟨79, _⟩ => ⟨S100000x512, .f32⟩
  | .hbm, ⟨80, _⟩ => ⟨S100000x512, .f32⟩
  | .hbm, ⟨81, _⟩ => ⟨S100000x512, .f32⟩
  | .hbm, ⟨82, _⟩ => ⟨S_, .f32⟩
  | .hbm, ⟨83, _⟩ => ⟨S_, .f32⟩
  | .hbm, ⟨84, _⟩ => ⟨S100000x512, .i1⟩
  | .hbm, ⟨85, _⟩ => ⟨S100000x512, .f32⟩
  | .hbm, ⟨86, _⟩ => ⟨S100000x512, .f32⟩
  | .hbm, ⟨87, _⟩ => ⟨S100000x512, .f32⟩
  | .hbm, ⟨88, _⟩ => ⟨S100000x512, .f32⟩
  | .hbm, ⟨89, _⟩ => ⟨S100000x512, .f32⟩
  | .hbm, ⟨90, _⟩ => ⟨S_, .f32⟩
  | .hbm, ⟨91, _⟩ => ⟨S100000x512, .f32⟩
  | .hbm, ⟨92, _⟩ => ⟨S100000x512, .f32⟩
  | .hbm, ⟨93, _⟩ => ⟨S_, .f32⟩
  | .hbm, ⟨94, _⟩ => ⟨S100000x512, .f32⟩
  | .hbm, ⟨95, _⟩ => ⟨S100000x512, .f32⟩
  | .hbm, ⟨96, _⟩ => ⟨S100000x512, .f32⟩
  | .hbm, ⟨97, _⟩ => ⟨S100000x512, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]

class Facts₀ : Prop where
  bcast_S_S99999 : S_.BroadcastsInDim S99999 (![] : Fin 0 → Fin S99999.rank)
  bcast_S99999_S99999x1_0 : S99999.BroadcastsInDim S99999x1 (![0] : Fin 1 → Fin S99999x1.rank)
  transposes_S512x512_S512x512_1_0 : S512x512.Transposes [1, 0] S512x512
  bcast_S512_S1x512_1 : S512.BroadcastsInDim S1x512 (![1] : Fin 1 → Fin S1x512.rank)
  bcast_S1x512_S99999x512_0_1 : S1x512.BroadcastsInDim S99999x512 (![0, 1] : Fin 2 → Fin S99999x512.rank)
  bcast_S_S99999x512 : S_.BroadcastsInDim S99999x512 (![] : Fin 0 → Fin S99999x512.rank)
  bcast_S_S100000x512 : S_.BroadcastsInDim S100000x512 (![] : Fin 0 → Fin S100000x512.rank)
  bcast_S_S100000 : S_.BroadcastsInDim S100000 (![] : Fin 0 → Fin S100000.rank)
  bcast_S100000_S100000x1_0 : S100000.BroadcastsInDim S100000x1 (![0] : Fin 1 → Fin S100000x1.rank)
  transposes_S1536x512_S512x1536_1_0 : S1536x512.Transposes [1, 0] S512x1536
  bcast_S100000x1_S100000x1536_0_1 : S100000x1.BroadcastsInDim S100000x1536 (![0, 1] : Fin 2 → Fin S100000x1536.rank)
  bcast_S1536_S1x1536_1 : S1536.BroadcastsInDim S1x1536 (![1] : Fin 1 → Fin S1x1536.rank)
  bcast_S1x1536_S100000x1536_0_1 : S1x1536.BroadcastsInDim S100000x1536 (![0, 1] : Fin 2 → Fin S100000x1536.rank)
  slices_S100000x1536_S100000x512_0_0 : S100000x1536.Slices ![0, 0] S100000x512
  slices_S100000x1536_S100000x512_0_512 : S100000x1536.Slices ![0, 512] S100000x512
  slices_S100000x1536_S100000x512_0_1024 : S100000x1536.Slices ![0, 1024] S100000x512
  bcast_S100000x1_S100000x512_0_1 : S100000x1.BroadcastsInDim S100000x512 (![0, 1] : Fin 2 → Fin S100000x512.rank)
  gather_S100000x512_S99999x1_S99999x512_1_0_n_n_0_1_1512_wf : GatherDims.WF S100000x512 S99999x1 S99999x512 [1] [0] [] [0] [] 1 ![1, 512]
  dot_S99999x512_S512x512_S99999x512_1_0_0_1_n_n_wf : DotDims.WF S99999x512 S512x512 S99999x512 [1] [0] [0] [1] [] []
  scatter_S100000x512_S99999x1_S99999x512_1_0_0_1_wf : ScatterDims.WF S100000x512 S99999x1 S99999x512 [1] [0] [0] 1
  scatter_S100000_S99999x1_S99999_n_0_0_1_wf : ScatterDims.WF S100000 S99999x1 S99999 [] [0] [0] 1
  dot_S100000x512_S512x1536_S100000x1536_1_0_0_1_n_n_wf : DotDims.WF S100000x512 S512x1536 S100000x1536 [1] [0] [0] [1] [] []

variable [Facts₀]

def gather_S100000x512_S99999x1_S99999x512_1_0_n_n_0_1_1512 : GatherDims S100000x512 S99999x1 S99999x512 where
  offsetDims := [1]
  collapsedSliceDims := [0]
  operandBatchingDims := []
  startIndicesBatchingDims := []
  startIndexMap := [0]
  indexVectorDim := 1
  sliceSizes := ![1, 512]
  wf := gather_S100000x512_S99999x1_S99999x512_1_0_n_n_0_1_1512_wf
def dot_S99999x512_S512x512_S99999x512_1_0_0_1_n_n : DotDims S99999x512 S512x512 S99999x512 where
  lhsContracting := [1]
  rhsContracting := [0]
  lhsNonContracting := [0]
  rhsNonContracting := [1]
  lhsBatch := []
  rhsBatch := []
  wf := dot_S99999x512_S512x512_S99999x512_1_0_0_1_n_n_wf
def scatter_S100000x512_S99999x1_S99999x512_1_0_0_1 : ScatterDims S100000x512 S99999x1 S99999x512 where
  updateWindowDims := [1]
  insertedWindowDims := [0]
  scatterDimsToOperandDims := [0]
  indexVectorDim := 1
  wf := scatter_S100000x512_S99999x1_S99999x512_1_0_0_1_wf
def scatter_S100000_S99999x1_S99999_n_0_0_1 : ScatterDims S100000 S99999x1 S99999 where
  updateWindowDims := []
  insertedWindowDims := [0]
  scatterDimsToOperandDims := [0]
  indexVectorDim := 1
  wf := scatter_S100000_S99999x1_S99999_n_0_0_1_wf
def dot_S100000x512_S512x1536_S100000x1536_1_0_0_1_n_n : DotDims S100000x512 S512x1536 S100000x1536 where
  lhsContracting := [1]
  rhsContracting := [0]
  lhsNonContracting := [0]
  rhsNonContracting := [1]
  lhsBatch := []
  rhsBatch := []
  wf := dot_S100000x512_S512x1536_S100000x1536_1_0_0_1_n_n_wf

class Facts : Prop extends Facts₀ where

variable [Facts]
-- ==== Proof.KernelRun.lean ====
/-
  The idealized kernel's run with its two results kept.

  @main is four segments: the host operations before the first launch, the edge region, the host operations
  between the launches, the node region. The library's launch theorem for such a list of segments ends in a state
  where every buffer that outlives a region holds the contents `W4` that the segments leave: the fold of the host
  operations over the launch memory, with each region's arrays replaced by what its write-backs leave. The generated
  frame keeps of that state only the argument arrays; here the two result arrays are kept as well, each at
  `W4`'s contents, which are the node region's two output arrays after its last write-back (`W4_arr`).
-/
import proofs.«113256_j30855045054488_1_alg».proof.Proof.Gen.KernelIdeal.Frame

set_option maxRecDepth 16384

noncomputable section

namespace Cert.KernelIdeal.Found

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two results at the contents the
    segments leave and the arguments as launched. -/
theorem run : θ_run defs (onTc (τ := τ) (main (F := F))) ⟨m, fun _ => 0, ρ⟩ (fun r => ∀ c : Dev nD,
      r.2.mem ((c.tc : Thread nD τ).loc main_v0_0) = W4 m ρ c (Proc.devRef .tc main_v0_0)
      ∧ r.2.mem ((c.tc : Thread nD τ).loc main_v0_1) = W4 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Found

end
-- ==== Proof.HostChain.lean ====
/-
  What the host operations around the two launches leave in the arrays the launches stage.

  Before the edge launch: the children's hidden and cell states gathered along the edges, each with 353 zero rows
  appended (the edge launch walks 98 blocks of 1024 rows); the forget gate's weights transposed; its bias as one row.
  Between the launches: the first 99999 rows of the edge launch's result summed per parent, the children's hidden
  states summed per parent, the 0/1 column "has a child" (the per-parent count of ones compared with zero, then the
  flag's numeric value, as a column), the two gate weight matrices transposed, the gate bias as one row.
  Each is stated through the reference program's own stages where the operations are the same ones (the gathers, the
  per-parent sum of hidden states, the count's comparison, the transposes), so that the two programs' shared chain
  is never opened. The second stretch is first read over ARBITRARY entry contents `Wv`, then at what the edge launch
  leaves: every buffer it does not write holds what the first stretch left.
-/
import proofs.«113256_j30855045054488_1_alg».proof.Proof.Gen.KernelIdeal.Frame
import proofs.«113256_j30855045054488_1_alg».proof.Proof.RefRead
import Idealize.ShloMosaic.Lib.StableHlo.Run
import Idealize.ShloMosaic.Lib.Pipeline.Value
import Idealize.ShloMosaic.Lib.ValueIdx

set_option maxRecDepth 16384

noncomputable section

namespace Cert.KernelIdeal.Host

open Cert.KernelIdeal Cert.KernelIdeal.Gen
open Idealize.ShloMosaic Idealize.ShloMosaic.TcCoe Idealize.SL.Sem Idealize.ShloMosaic.ValueIdx Idealize.ShloMosaic.StableHlo
open Cert.ReferenceIdeal.Read (val_main_v6 val_main_v13 val_main_v14 val_main_v27 val_main_v37 val_main_v39 val_main_v41)

variable (m : (ℓ : Loc nD τ sig) → Buf (Elt Ideal) ℓ) (ρ : Dev nD → PrngReg) (c : Dev nD)

/-! ## Before the edge launch -/

theorem W1_v6 : W1 m ρ c (Proc.devRef .tc main_call0_v6)
    = val_main_v6 (m ((c : Thread nD τ).loc main_arg1)) (m ((c : Thread nD τ).loc main_arg3)) := by
  show StableHlo.after hostOps0 (W0 m ρ c) (Proc.devRef .tc main_call0_v6) = _
  after_results
  rfl

theorem V1_v14 : V1 m ρ c main_call0_v14 = pad S100352x512 ![0, 0] ![353, 0] ![0, 0]
      (val_main_v6 (m ((c : Thread nD τ).loc main_arg1)) (m ((c : Thread nD τ).loc main_arg3)))
      (sitofp (F := Ideal) .f32 (constantI S_ 32 0#32)) pads_S99999x512_S100352x512_03530_000 h_S_ := by
  show StableHlo.after hostOps0 (W0 m ρ c) (Proc.devRef .tc main_call0_v14) = _
  after_results
  rfl

theorem V1_v15 : V1 m ρ c main_call0_v15 = pad S100352x512 ![0, 0] ![353, 0] ![0, 0]
      (val_main_v13 (m ((c : Thread nD τ).loc main_arg2)) (m ((c : Thread nD τ).loc main_arg3)))
      (sitofp (F := Ideal) .f32 (constantI S_ 32 0#32)) pads_S99999x512_S100352x512_03530_000 h_S_ := by
  show StableHlo.after hostOps0 (W0 m ρ c) (Proc.devRef .tc main_call0_v15) = _
  after_results
  rfl

theorem V1_v16 : V1 m ρ c main_call0_v16 = val_main_v14 (m ((c : Thread nD τ).loc main_arg8)) := by
  show StableHlo.after hostOps0 (W0 m ρ c) (Proc.devRef .tc main_call0_v16) = _
  after_results
  rfl

theorem V1_v17 : V1 m ρ c main_call0_v17 = shapeCast S1x512 (m ((c : Thread nD τ).loc main_arg9)) shapeCasts_S512_S1x512 := by
  show StableHlo.after hostOps0 (W0 m ρ c) (Proc.devRef .tc main_call0_v17) = _
  after_results
  rfl

/-! ## Carried through the edge launch: what it does not write -/

theorem W1_arg (b : Ref sig .tc) (hb : StableHlo.after hostOps0 (W0 m ρ c) (Proc.devRef .tc b) = W0 m ρ c (Proc.devRef .tc b)) :
    W1 m ρ c (Proc.devRef .tc b) = W0 m ρ c (Proc.devRef .tc b) := hb

theorem W2_arg0 : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem W2_arg4 : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)
theorem W2_arg5 : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results)
theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)
theorem W2_arg7 : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results)
theorem W2_v6 : W2 m ρ c (Proc.devRef .tc main_call0_v6)
    = val_main_v6 (m ((c : Thread nD τ).loc main_arg1)) (m ((c : Thread nD τ).loc main_arg3)) :=
  (W2_of_ne m ρ c main_call0_v6 (by decide)).trans (W1_v6 m ρ c)

/-! ## Between the launches, over arbitrary entry contents -/

section Second
variable (Wv : Valuation τ sig (Elt Ideal))

theorem ops1_arg0 : StableHlo.after hostOps1 Wv (Proc.devRef .tc main_arg0) = Wv (Proc.devRef .tc main_arg0) := by
  after_results

theorem ops1_v22 : StableHlo.after hostOps1 Wv (Proc.devRef .tc main_call0_v22)
    = Host.scatterAdd scatter_S100000x512_S99999x1_S99999x512_1_0_0_1
        (broadcastInDim S100000x512 ![] bcast_S_S100000x512 (constant (F := Ideal) S_ .f32 0x00000000#32))
        (broadcastInDim S99999x1 ![0] bcast_S99999_S99999x1_0 (Wv (Proc.devRef .tc main_arg4)))
        (Wv (Proc.devRef .tc main_call0_v6)) := by
  after_results
  rfl

theorem ops1_v25 : StableHlo.after hostOps1 Wv (Proc.devRef .tc main_call0_v25)
    = Host.scatterAdd scatter_S100000x512_S99999x1_S99999x512_1_0_0_1
        (broadcastInDim S100000x512 ![] bcast_S_S100000x512 (constant (F := Ideal) S_ .f32 0x00000000#32))
        (broadcastInDim S99999x1 ![0] bcast_S99999_S99999x1_0 (Wv (Proc.devRef .tc main_arg4)))
        (extractStridedSlice S99999x512 ![0, 0] (Wv (Proc.devRef .tc main_call0_v18)) slices_S100352x512_S99999x512_0_0) := by
  after_results
  rfl

theorem ops1_v33 : StableHlo.after hostOps1 Wv (Proc.devRef .tc main_call0_v33)
    = shapeCast S100000x1 (uitofp (F := Ideal) .f32 (cmpf (F := Ideal) .ogt
        (Host.scatterAdd scatter_S100000_S99999x1_S99999_n_0_0_1
          (broadcastInDim S100000 ![] bcast_S_S100000 (constant (F := Ideal) S_ .f32 0x00000000#32))
          (broadcastInDim S99999x1 ![0] bcast_S99999_S99999x1_0 (Wv (Proc.devRef .tc main_arg4)))
          (broadcastInDim S99999 ![] bcast_S_S99999 (constant (F := Ideal) S_ .f32 0x3F800000#32)))
        (broadcastInDim S100000 ![] bcast_S_S100000 (constant (F := Ideal) S_ .f32 0x00000000#32))))
      shapeCasts_S100000_S100000x1 := by
  after_results
  rfl

theorem ops1_v34 : StableHlo.after hostOps1 Wv (Proc.devRef .tc main_call0_v34)
    = transpose S512x1536 [1, 0] (Wv (Proc.devRef .tc main_arg5)) transposes_S1536x512_S512x1536_1_0 := by
  after_results
  rfl

theorem ops1_v35 : StableHlo.after hostOps1 Wv (Proc.devRef .tc main_call0_v35)
    = transpose S512x1536 [1, 0] (Wv (Proc.devRef .tc main_arg6)) transposes_S1536x512_S512x1536_1_0 := by
  after_results
  rfl

theorem ops1_v36 : StableHlo.after hostOps1 Wv (Proc.devRef .tc main_call0_v36)
    = shapeCast S1x1536 (Wv (Proc.devRef .tc main_arg7)) shapeCasts_S1536_S1x1536 := by
  after_results
  rfl

end Second

/-! ## The node launch's entry arrays -/

theorem V3_arg0 : V3 m ρ c main_arg0 = m ((c : Thread nD τ).loc main_arg0) :=
  (ops1_arg0 (W2 m ρ c)).trans (W2_arg0 m ρ c)

theorem V3_v22 : V3 m ρ c main_call0_v22
    = val_main_v27 (m ((c : Thread nD τ).loc main_arg1)) (m ((c : Thread nD τ).loc main_arg3)) (m ((c : Thread nD τ).loc main_arg4)) := by
  refine (ops1_v22 (W2 m ρ c)).trans ?_
  rw [W2_arg4, W2_v6]
  rfl

/-- The per-parent sum of the first 99999 rows of whatever the edge launch left in its result array. -/
theorem V3_v25 : V3 m ρ c main_call0_v25
    = Host.scatterAdd scatter_S100000x512_S99999x1_S99999x512_1_0_0_1
        (broadcastInDim S100000x512 ![] bcast_S_S100000x512 (constant (F := Ideal) S_ .f32 0x00000000#32))
        (broadcastInDim S99999x1 ![0] bcast_S99999_S99999x1_0 (m ((c : Thread nD τ).loc main_arg4)))
        (extractStridedSlice S99999x512 ![0, 0] ((dat0 (V1 m ρ) c).arrAt 4 cfg0.N) slices_S100352x512_S99999x512_0_0) := by
  refine (ops1_v25 (W2 m ρ c)).trans ?_
  rw [W2_arg4, W2_arr m ρ c 4]

theorem V3_v33 : V3 m ρ c main_call0_v33
    = shapeCast S100000x1 (uitofp (F := Ideal) .f32 (val_main_v37 (m ((c : Thread nD τ).loc main_arg4)))) shapeCasts_S100000_S100000x1 := by
  refine (ops1_v33 (W2 m ρ c)).trans ?_
  rw [W2_arg4]
  rfl

theorem V3_v34 : V3 m ρ c main_call0_v34 = val_main_v41 (m ((c : Thread nD τ).loc main_arg5)) := by
  refine (ops1_v34 (W2 m ρ c)).trans ?_
  rw [W2_arg5]
  rfl

theorem V3_v35 : V3 m ρ c main_call0_v35 = val_main_v39 (m ((c : Thread nD τ).loc main_arg6)) := by
  refine (ops1_v35 (W2 m ρ c)).trans ?_
  rw [W2_arg6]
  rfl

theorem V3_v36 : V3 m ρ c main_call0_v36 = shapeCast S1x1536 (m ((c : Thread nD τ).loc main_arg7)) shapeCasts_S1536_S1x1536 := by
  refine (ops1_v36 (W2 m ρ c)).trans ?_
  rw [W2_arg7]

end Cert.KernelIdeal.Host

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«113256_j30855045054488_1_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.TreeCell.lean ====
/-
  The child-sum tree-LSTM cell on the extended reals, entry by entry.

  Edge layer: a child's cell state, gated by the forget gate of its hidden state,
      edgeOut H C W b (e, j) = logistic ((H · W)(e, j) + b(0, j)) * C(e, j).
  Node layer: the three gates' pre-activations choose, row by row, between the children's summed hidden states
  and the node's own input by a 0/1 column `mk`,
      gates X HT mk U Wt b (n, k) = mk(n, 0) * (HT · U)(n, k) + (1 - mk(n, 0)) * (X · Wt)(n, k) + b(0, k),
  the new cell state takes the input gate (columns 0 … 511) and the update (columns 1024 … 1535),
      cellC g mk CR (n, j) = logistic (g(n, j)) * tanh (g(n, 1024 + j)) + mk(n, 0) * CR(n, j),
  and the new hidden state the output gate (columns 512 … 1023),
      cellH g cC (n, j) = logistic (g(n, 512 + j)) * tanh (cC(n, j)).
  The number of rows is a variable: a block of rows and the whole array are instances of the same functions, and
  a row of each depends on the operands with a row axis only through that row (`…_rows`).
  `choose` is the law that joins a selection by a flag with the arithmetic on its 0/1 value: it holds for all
  extended reals, since `0 * x = 0` and `1 * x = x` there with no exception at the infinities.
-/
import proofs.«113256_j30855045054488_1_alg».proof.Proof.LibMatProd

noncomputable section

namespace Cert.TreeCell

open Idealize.ShloMosaic Idealize.ShloMosaic.ValueIdx Cert.Lib.MatProd

/-- Column `o + j` of a `[N, 1536]` array, for `j < 512` and an offset `o ≤ 1024`. -/
abbrev col (o : ℕ) (ho : o + 512 ≤ 1536) (j : Fin 512) : Fin 1536 := ⟨o + j.val, by have := j.isLt; omega⟩

def edgeOut {E : ℕ} (H C : (⟨2, ![E, 512]⟩ : Shape).Idx → EReal) (W : (⟨2, ![512, 512]⟩ : Shape).Idx → EReal)
    (b : (⟨2, ![1, 512]⟩ : Shape).Idx → EReal) : (⟨2, ![E, 512]⟩ : Shape).Idx → EReal :=
  fun i => Ideal.logistic (prod H W i + b (ix2 (0 : Fin 1) (i 1))) * C i

def gates {N : ℕ} (X HT : (⟨2, ![N, 512]⟩ : Shape).Idx → EReal) (mk : (⟨2, ![N, 1]⟩ : Shape).Idx → EReal)
    (U Wt : (⟨2, ![512, 1536]⟩ : Shape).Idx → EReal) (b : (⟨2, ![1, 1536]⟩ : Shape).Idx → EReal) :
    (⟨2, ![N, 1536]⟩ : Shape).Idx → EReal :=
  fun i => mk (ix2 (i 0) (0 : Fin 1)) * prod HT U i + (1 - mk (ix2 (i 0) (0 : Fin 1))) * prod X Wt i + b (ix2 (0 : Fin 1) (i 1))

def cellC {N : ℕ} (g : (⟨2, ![N, 1536]⟩ : Shape).Idx → EReal) (mk : (⟨2, ![N, 1]⟩ : Shape).Idx → EReal)
    (CR : (⟨2, ![N, 512]⟩ : Shape).Idx → EReal) : (⟨2, ![N, 512]⟩ : Shape).Idx → EReal :=
  fun i => Ideal.logistic (g (ix2 (i 0) (col 0 (by omega) (i 1)))) * Ideal.tanh (g (ix2 (i 0) (col 1024 (by omega) (i 1))))
    + mk (ix2 (i 0) (0 : Fin 1)) * CR i

def cellH {N : ℕ} (g : (⟨2, ![N, 1536]⟩ : Shape).Idx → EReal) (cC : (⟨2, ![N, 512]⟩ : Shape).Idx → EReal) :
    (⟨2, ![N, 512]⟩ : Shape).Idx → EReal :=
  fun i => Ideal.logistic (g (ix2 (i 0) (col 512 (by omega) (i 1)))) * Ideal.tanh (cC i)

theorem edgeOut_apply {E : ℕ} (H C : (⟨2, ![E, 512]⟩ : Shape).Idx → EReal) (W : (⟨2, ![512, 512]⟩ : Shape).Idx → EReal)
    (b : (⟨2, ![1, 512]⟩ : Shape).Idx → EReal) (e : Fin E) (j : Fin 512) :
    edgeOut H C W b (ix2 e j) = Ideal.logistic (prod H W (ix2 e j) + b (ix2 (0 : Fin 1) j)) * C (ix2 e j) := rfl

theorem gates_apply {N : ℕ} (X HT : (⟨2, ![N, 512]⟩ : Shape).Idx → EReal) (mk : (⟨2, ![N, 1]⟩ : Shape).Idx → EReal)
    (U Wt : (⟨2, ![512, 1536]⟩ : Shape).Idx → EReal) (b : (⟨2, ![1, 1536]⟩ : Shape).Idx → EReal) (n : Fin N) (k : Fin 1536) :
    gates X HT mk U Wt b (ix2 n k)
      = mk (ix2 n (0 : Fin 1)) * prod HT U (ix2 n k) + (1 - mk (ix2 n (0 : Fin 1))) * prod X Wt (ix2 n k) + b (ix2 (0 : Fin 1) k) := rfl

theorem cellC_apply {N : ℕ} (g : (⟨2, ![N, 1536]⟩ : Shape).Idx → EReal) (mk : (⟨2, ![N, 1]⟩ : Shape).Idx → EReal)
    (CR : (⟨2, ![N, 512]⟩ : Shape).Idx → EReal) (n : Fin N) (j : Fin 512) :
    cellC g mk CR (ix2 n j)
      = Ideal.logistic (g (ix2 n (col 0 (by omega) j))) * Ideal.tanh (g (ix2 n (col 1024 (by omega) j)))
        + mk (ix2 n (0 : Fin 1)) * CR (ix2 n j) := rfl

theorem cellH_apply {N : ℕ} (g : (⟨2, ![N, 1536]⟩ : Shape).Idx → EReal) (cC : (⟨2, ![N, 512]⟩ : Shape).Idx → EReal)
    (n : Fin N) (j : Fin 512) :
    cellH g cC (ix2 n j) = Ideal.logistic (g (ix2 n (col 512 (by omega) j))) * Ideal.tanh (cC (ix2 n j)) := rfl

/-- A selection between `a` and `c` by a flag is the arithmetic on the flag's 0/1 value: with the flag up
    `1 * a + (1 - 1) * c = a + 0 = a`, with it down `0 * a + (1 - 0) * c = 0 + c = c`; `0 * x = 0` for every
    extended real, the infinities included. -/
theorem choose (f : Bool) (a c : EReal) :
    (if f then (1 : EReal) else 0) * a + (1 - (if f then (1 : EReal) else 0)) * c = if f then a else c := by
  cases f
  · simp
  · have h : (1 : EReal) - 1 = 0 := by
      rw [← EReal.coe_one, ← EReal.coe_sub]; simp
    simp [h]

/-- Keeping `c` where the flag is up and `0` elsewhere is multiplying by the flag's 0/1 value. -/
theorem keep (f : Bool) (c : EReal) : (if f then (1 : EReal) else 0) * c = if f then c else 0 := by
  cases f <;> simp

end Cert.TreeCell

end
-- ==== Proof.TreeCellRows.lean ====
/-
  A row of each layer of the cell depends on the operands that have a row axis only through that row.

  So a layer computed on a BLOCK of rows (its row `p` holding row `e` of the whole arrays, the operands without a
  row axis — weights and bias rows — agreeing on the column in question) gives, at `(p, q)`, the layer of the whole
  arrays at `(e, q)`. This is what makes a layer computed block of rows by block of rows over a grid the layer of
  the whole arrays, and also what makes rows appended to the operands (zero padding) invisible in the rows kept.
-/
import proofs.«113256_j30855045054488_1_alg».proof.Proof.TreeCell

noncomputable section

namespace Cert.TreeCell

open Idealize.ShloMosaic Idealize.ShloMosaic.ValueIdx Cert.Lib.MatProd

theorem prod_block {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal) (p : Fin B) (q : Fin N) (e : Fin M)
    (hl : ∀ k : Fin K, lb (ix2 p k) = l (ix2 e k)) (hr : ∀ k : Fin K, rb (ix2 k q) = r (ix2 k q)) :
    prod lb rb (ix2 p q) = prod l r (ix2 e q) :=
  Finset.sum_congr rfl fun k _ => by
    show lb (ix2 p k) * rb (ix2 k q) = l (ix2 e k) * r (ix2 k q)
    rw [hl k, hr k]

theorem edgeOut_block {E B : ℕ} (H C : (⟨2, ![E, 512]⟩ : Shape).Idx → EReal) (W : (⟨2, ![512, 512]⟩ : Shape).Idx → EReal)
    (b : (⟨2, ![1, 512]⟩ : Shape).Idx → EReal) (Hb Cb : (⟨2, ![B, 512]⟩ : Shape).Idx → EReal)
    (Wb : (⟨2, ![512, 512]⟩ : Shape).Idx → EReal) (bb : (⟨2, ![1, 512]⟩ : Shape).Idx → EReal)
    (p : Fin B) (q : Fin 512) (e : Fin E)
    (hH : ∀ k : Fin 512, Hb (ix2 p k) = H (ix2 e k)) (hC : Cb (ix2 p q) = C (ix2 e q))
    (hW : ∀ k : Fin 512, Wb (ix2 k q) = W (ix2 k q)) (hb : bb (ix2 (0 : Fin 1) q) = b (ix2 (0 : Fin 1) q)) :
    edgeOut Hb Cb Wb bb (ix2 p q) = edgeOut H C W b (ix2 e q) := by
  rw [edgeOut_apply, edgeOut_apply, prod_block H W Hb Wb p q e hH hW, hC, hb]

theorem gates_block {N B : ℕ} (X HT : (⟨2, ![N, 512]⟩ : Shape).Idx → EReal) (mk : (⟨2, ![N, 1]⟩ : Shape).Idx → EReal)
    (U Wt : (⟨2, ![512, 1536]⟩ : Shape).Idx → EReal) (b : (⟨2, ![1, 1536]⟩ : Shape).Idx → EReal)
    (Xb HTb : (⟨2, ![B, 512]⟩ : Shape).Idx → EReal) (mkb : (⟨2, ![B, 1]⟩ : Shape).Idx → EReal)
    (Ub Wtb : (⟨2, ![512, 1536]⟩ : Shape).Idx → EReal) (bb : (⟨2, ![1, 1536]⟩ : Shape).Idx → EReal)
    (p : Fin B) (k : Fin 1536) (n : Fin N)
    (hX : ∀ q : Fin 512, Xb (ix2 p q) = X (ix2 n q)) (hHT : ∀ q : Fin 512, HTb (ix2 p q) = HT (ix2 n q))
    (hmk : mkb (ix2 p (0 : Fin 1)) = mk (ix2 n (0 : Fin 1)))
    (hU : ∀ q : Fin 512, Ub (ix2 q k) = U (ix2 q k)) (hWt : ∀ q : Fin 512, Wtb (ix2 q k) = Wt (ix2 q k))
    (hb : bb (ix2 (0 : Fin 1) k) = b (ix2 (0 : Fin 1) k)) :
    gates Xb HTb mkb Ub Wtb bb (ix2 p k) = gates X HT mk U Wt b (ix2 n k) := by
  rw [gates_apply, gates_apply, prod_block HT U HTb Ub p k n hHT hU, prod_block X Wt Xb Wtb p k n hX hWt, hmk, hb]

theorem cellC_block {N B : ℕ} (g : (⟨2, ![N, 1536]⟩ : Shape).Idx → EReal) (mk : (⟨2, ![N, 1]⟩ : Shape).Idx → EReal)
    (CR : (⟨2, ![N, 512]⟩ : Shape).Idx → EReal) (gb : (⟨2, ![B, 1536]⟩ : Shape).Idx → EReal)
    (mkb : (⟨2, ![B, 1]⟩ : Shape).Idx → EReal) (CRb : (⟨2, ![B, 512]⟩ : Shape).Idx → EReal)
    (p : Fin B) (j : Fin 512) (n : Fin N)
    (hg : ∀ k : Fin 1536, gb (ix2 p k) = g (ix2 n k)) (hmk : mkb (ix2 p (0 : Fin 1)) = mk (ix2 n (0 : Fin 1)))
    (hCR : CRb (ix2 p j) = CR (ix2 n j)) :
    cellC gb mkb CRb (ix2 p j) = cellC g mk CR (ix2 n j) := by
  rw [cellC_apply, cellC_apply, hg, hg, hmk, hCR]

theorem cellH_block {N B : ℕ} (g : (⟨2, ![N, 1536]⟩ : Shape).Idx → EReal) (cC : (⟨2, ![N, 512]⟩ : Shape).Idx → EReal)
    (gb : (⟨2, ![B, 1536]⟩ : Shape).Idx → EReal) (cCb : (⟨2, ![B, 512]⟩ : Shape).Idx → EReal)
    (p : Fin B) (j : Fin 512) (n : Fin N)
    (hg : ∀ k : Fin 1536, gb (ix2 p k) = g (ix2 n k)) (hc : cCb (ix2 p j) = cC (ix2 n j)) :
    cellH gb cCb (ix2 p j) = cellH g cC (ix2 n j) := by
  rw [cellH_apply, cellH_apply, hg, hc]

end Cert.TreeCell

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«113256_j30855045054488_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibColumnSpread.lean ====
/-
  One column spread over many.

  A kernel that keeps a per-row scalar as a column `[a, 1]` and multiplies a whole `[a, b]` block by it
  broadcasts the column along the second axis. Read at `(p, c)` the broadcast is the column's entry of row `p`,
  whatever the column `c`. (The library has the row form `[1, b] → [a, b]`; this is the column form.)
  Imports only the Idealize library.
-/
import Idealize.ShloMosaic.Lib.Pipeline.Value
import Idealize.ShloMosaic.Lib.ValueIdx

noncomputable section

namespace Cert.Lib.ColumnSpread

open Idealize.ShloMosaic Idealize.ShloMosaic.ValueIdx

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnSpread

end
-- ==== Proof.KernelBodies.lean ====
/-
  The two kernel bodies, entry by entry, are the layers of the child-sum tree-LSTM cell.

  Each body's arithmetic is a pure function of the blocks it reads. On the extended reals a change of float
  format is the identity and a cast of an array to its own shape is the array itself, so:
    * the edge body (a product of [1024, 512] by [512, 512] into the zero accumulator, plus a bias row spread
      over the rows, through the logistic, times the child's cell block) is edgeOut;
    * the node body's gate block [400, 1536] (the mask column spread over the columns times h-tilde · U, plus
      one minus the mask times x · W, plus the bias row) is gates;
    * columns 0 … 511 and 1024 … 1535 of the gate block, with the masked reduced cell state, give the new cell
      state cellC; columns 512 … 1023 with the new cell state give the new hidden state cellH.
  A product into the zero accumulator over a one-axis contraction is rows times columns
  (Cert.Lib.MatProd.matmul_zero_eq_prod), and the float constant with bit pattern 0x3F800000 is the extended real 1.
-/
import proofs.«113256_j30855045054488_1_alg».proof.Proof.Gen.KernelIdeal.Skeleton
import proofs.«113256_j30855045054488_1_alg».proof.Proof.TreeCell
import proofs.«113256_j30855045054488_1_alg».proof.Proof.LibDenseLayer
import proofs.«113256_j30855045054488_1_alg».proof.Proof.LibColumnSpread
import proofs.«113256_j30855045054488_1_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Cert.TreeCell Cert.Lib.MatProd Cert.Lib.ColumnSpread
open Idealize.ShloMosaic Idealize.ShloMosaic.ValueIdx

/-- The 32-bit pattern of the constant one denotes the extended real one. -/
theorem one_f32 : (Scalar.ofBits (F := Ideal) .f32 0x3F800000#32 : EReal) = 1 := by
  show Ideal.ofBits .f32 0x3F800000#32 = 1
  simp [Ideal.ofBits, Ideal.ieee, -EReal.coe_mul]; norm_num

/-- The logistic of an array, read at an entry. -/
theorem logistic_apply {s : Shape} {φ : FTy} (a : FVec Ideal s φ) (i : s.Idx) : logistic a i = Ideal.logistic (a i) := rfl

/-- The hyperbolic tangent of an array, read at an entry. -/
theorem tanh_apply {s : Shape} {φ : FTy} (a : FVec Ideal s φ) (i : s.Idx) : tanh a i = Ideal.tanh (a i) := rfl

/-- The node layer's contraction [400, 512] x [512, 1536] into the zero accumulator is rows times columns. -/
theorem mm_node {φ₁ φ₂ : FTy} (l : FVec Ideal S400x512 φ₁) (r : FVec Ideal S512x1536 φ₂) :
    matmul dot_S400x512_S512x1536_S400x1536_1_0_0_1_n_n none l r (constant (F := Ideal) S400x1536 .f32 0x00000000#32) = prod l r :=
  matmul_zero_eq_prod dot_S400x512_S512x1536_S400x1536_1_0_0_1_n_n (by decide) (by decide)
    (fun j q => rfl) (fun j q => rfl) (fun j q => rfl) (fun j q => rfl) none l r

/-- The edge layer's contraction [1024, 512] x [512, 512] into the zero accumulator is rows times columns. -/
theorem mm_edge {φ₁ φ₂ : FTy} (l : FVec Ideal S1024x512 φ₁) (r : FVec Ideal S512x512 φ₂) :
    matmul dot_S1024x512_S512x512_S1024x512_1_0_0_1_n_n none l r (constant (F := Ideal) S1024x512 .f32 0x00000000#32) = prod l r :=
  matmul_zero_eq_prod dot_S1024x512_S512x512_S1024x512_1_0_0_1_n_n (by decide) (by decide)
    (fun j q => rfl) (fun j q => rfl) (fun j q => rfl) (fun j q => rfl) none l r

/-- The gate block: mk * (HT · U) + (1 - mk) * (X · Wt) + b, entry by entry. -/
theorem gate_body (x0 x1 : Vec Ideal S400x512 .f32) (x3 : Vec Ideal S400x1 .f32) (x4 x5 : Vec Ideal S512x1536 .f32)
    (x6 : Vec Ideal S1x1536 .f32) : Gen.k1_pay2 x0 x1 x3 x4 x5 x6 = gates x0 x1 x3 x4 x5 x6 := by
  funext j
  obtain ⟨p, q, rfl⟩ : ∃ (p : Fin 400) (q : Fin 1536), j = ix2 p q := ⟨j 0, j 1, eq_ix2 j⟩
  rw [gates_apply]
  unfold Gen.k1_pay2 Gen.k1_pay1
  simp only [shapeCast_self]
  rw [addf_apply, addf_apply, mulf_apply, mulf_apply, broadcastTo_1b_ab_apply, broadcastTo_a1_ab_apply,
    broadcastTo_a1_ab_apply, subf_apply, broadcast_apply, mm_node, mm_node, one_f32]
  rfl

/-- The new cell state: input gate times update, plus the kept part of the children's reduced cell state. -/
theorem node_c_body (x0 x1 x2 : Vec Ideal S400x512 .f32) (x3 : Vec Ideal S400x1 .f32) (x4 x5 : Vec Ideal S512x1536 .f32)
    (x6 : Vec Ideal S1x1536 .f32) :
    Gen.k1_pay3 x0 x1 x2 x3 x4 x5 x6 = cellC (gates x0 x1 x3 x4 x5 x6) x3 x2 := by
  funext j
  obtain ⟨p, q, rfl⟩ : ∃ (p : Fin 400) (q : Fin 512), j = ix2 p q := ⟨j 0, j 1, eq_ix2 j⟩
  rw [cellC_apply]
  unfold Gen.k1_pay3 Gen.k1_pay1
  simp only [shapeCast_self]
  rw [gate_body, addf_apply, mulf_apply, mulf_apply, logistic_apply, tanh_apply, broadcastTo_a1_ab_apply,
    slice2_axis1_apply 0 _ _ p q (col 0 (by omega) q) rfl,
    slice2_axis1_apply 1024 _ _ p q (col 1024 (by omega) q) rfl]

/-- The new hidden state: output gate times the hyperbolic tangent of the new cell state. -/
theorem node_h_body (x0 x1 x2 : Vec Ideal S400x512 .f32) (x3 : Vec Ideal S400x1 .f32) (x4 x5 : Vec Ideal S512x1536 .f32)
    (x6 : Vec Ideal S1x1536 .f32) :
    Gen.k1_pay4 x0 x1 x2 x3 x4 x5 x6
      = cellH (gates x0 x1 x3 x4 x5 x6) (cellC (gates x0 x1 x3 x4 x5 x6) x3 x2) := by
  funext j
  obtain ⟨p, q, rfl⟩ : ∃ (p : Fin 400) (q : Fin 512), j = ix2 p q := ⟨j 0, j 1, eq_ix2 j⟩
  rw [cellH_apply]
  unfold Gen.k1_pay4
  rw [node_c_body, gate_body, mulf_apply, logistic_apply, tanh_apply,
    slice2_axis1_apply 512 _ _ p q (col 512 (by omega) q) rfl]

/-- The edge layer: the forget gate of a child's hidden state, times the child's cell state. -/
theorem edge_body (x0 x1 : Vec Ideal S1024x512 .f32) (x2 : Vec Ideal S512x512 .f32) (x3 : Vec Ideal S1x512 .f32) :
    Gen.k0_pay1 x0 x1 x2 x3 = edgeOut x0 x1 x2 x3 := by
  funext j
  obtain ⟨p, q, rfl⟩ : ∃ (p : Fin 1024) (q : Fin 512), j = ix2 p q := ⟨j 0, j 1, eq_ix2 j⟩
  rw [edgeOut_apply]
  unfold Gen.k0_pay1
  simp only [shapeCast_self]
  rw [mulf_apply, logistic_apply, addf_apply, broadcastTo_1b_ab_apply, mm_edge]
  rfl

end Cert.KernelIdeal.Bodies
end
-- ==== Proof.EdgeArray.lean ====
/-
  The edge launch's output array as one function of the arrays it is entered with.

  The launch walks 98 grid points; point `t` stages rows `1024 t … 1024 t + 1023` of the two row-indexed operands
  (the gathered hidden and cell states, zero rows appended), the whole weight matrix and the whole bias row, and
  writes back rows `1024 t … 1024 t + 1023` of the result. A row of the edge layer depends on the row-indexed
  operands only through that row, so what point `t` writes back is block `t` of the edge layer of the WHOLE arrays;
  the 98 blocks tile the 100352 rows, so the array ends holding that layer.
-/
import proofs.«113256_j30855045054488_1_alg».proof.Proof.Gen.KernelIdeal.Frame
import proofs.«113256_j30855045054488_1_alg».proof.Proof.TreeCellRows
import proofs.«113256_j30855045054488_1_alg».proof.Proof.KernelBodies
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.TreeCell
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the 98 points: the row-indexed windows and the output sit at block `(t, 0)`, the
    weights and the bias row at block `(0, 0)`. -/
theorem edge_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge layer of the arrays the launch is entered with. -/
abbrev edgeArr (c : Dev nD) : S100352x512.Idx → EReal :=
  edgeOut (V c main_call0_v14) (V c main_call0_v15) (V c main_call0_v16) (V c main_call0_v17)

/-- What point `t` writes back is block `t` of the edge layer of the whole arrays. -/
theorem edge_flushed  (c : Dev nD) (t : Fin cfg0.N) :
    (dat0 V c).flushed 4 t = ((cfg0.win 4).blk t).view.read (Elt Ideal) (edgeArr V c) := by
  show (cfg0.win 4).cut (grid0.coords t) ((dat0 V c).after 4 t) = _
  rw [after0_4]
  unfold out0_4
  rw [View.canon_unit_zero zeros2]
  simp only [View.ld_unit_zero (S := S1024x512) zeros2, View.ld_unit_zero (S := S512x512) zeros2, View.ld_unit_zero (S := S1x512) zeros2]
  rw [Bodies.edge_body]
  obtain ⟨e0, e1, e2, e3, e4, e5, e6, e7, e8, e9⟩ := edge_idx t
  funext j
  obtain ⟨p, q, rfl⟩ : ∃ (p : Fin 1024) (q : Fin 512), j = ix2 p q := ⟨j 0, j 1, eq_ix2 j⟩
  have hN : cfg0.N = 98 := N_0
  have hrow : t.val * 1024 + p.val < 100352 := by have := t.isLt; have := p.isLt; omega
  have hemb : ((cfg0.win 4).blk t).view.emb (ix2 p q) = ix2 (⟨t.val * 1024 + p.val, hrow⟩ : Fin 100352) q := by
    funext a; apply Fin.ext
    match a with
    | ⟨0, _⟩ => show win0_4.index t (0 : Fin 2) * 1024 + 1 * p.val = t.val * 1024 + p.val; omega
    | ⟨1, _⟩ => show win0_4.index t (1 : Fin 2) * 512 + 1 * q.val = q.val; omega
  show edgeOut (iblk0 V c 0 t) (iblk0 V c 1 t) (iblk0 V c 2 t) (iblk0 V c 3 t) (ix2 p q)
    = edgeArr V c (((cfg0.win 4).blk t).view.emb (ix2 p q))
  rw [hemb]
  refine edgeOut_block _ _ _ _ _ _ _ _ p q ⟨t.val * 1024 + p.val, hrow⟩ (fun k => ?_) ?_ (fun k => ?_) ?_
  · show V c main_call0_v14 (((cfg0.win 0).blk t).view.emb (ix2 p k)) = V c main_call0_v14 (ix2 ⟨t.val * 1024 + p.val, hrow⟩ k)
    refine congrArg _ (funext fun a => Fin.ext ?_)
    match a with
    | ⟨0, _⟩ => show win0_0.index t (0 : Fin 2) * 1024 + 1 * p.val = t.val * 1024 + p.val; omega
    | ⟨1, _⟩ => show win0_0.index t (1 : Fin 2) * 512 + 1 * k.val = k.val; omega
  · show V c main_call0_v15 (((cfg0.win 1).blk t).view.emb (ix2 p q)) = V c main_call0_v15 (ix2 ⟨t.val * 1024 + p.val, hrow⟩ q)
    refine congrArg _ (funext fun a => Fin.ext ?_)
    match a with
    | ⟨0, _⟩ => show win0_1.index t (0 : Fin 2) * 1024 + 1 * p.val = t.val * 1024 + p.val; omega
    | ⟨1, _⟩ => show win0_1.index t (1 : Fin 2) * 512 + 1 * q.val = q.val; omega
  · show V c main_call0_v16 (((cfg0.win 2).blk t).view.emb (ix2 k q)) = V c main_call0_v16 (ix2 k q)
    refine congrArg _ (funext fun a => Fin.ext ?_)
    match a with
    | ⟨0, _⟩ => show win0_2.index t (0 : Fin 2) * 512 + 1 * k.val = k.val; omega
    | ⟨1, _⟩ => show win0_2.index t (1 : Fin 2) * 512 + 1 * q.val = q.val; omega
  · show V c main_call0_v17 (((cfg0.win 3).blk t).view.emb (ix2 (0 : Fin 1) q)) = V c main_call0_v17 (ix2 (0 : Fin 1) q)
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = q.val; omega

/-- An index of the result array is in point `t`'s block iff each coordinate is in the block's range on its axis. -/
theorem edge_mem_blk (t : Fin cfg0.N) (i : S100352x512.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_call0_v18).slice (win0_4.rect t)).set ↔ _
  rw [View.set_slice_whole, Rect.mem_set_unit]
  exact Iff.rfl

/-- Every row of the result lies in the block of the point `row / 1024`. -/
theorem edge_cover (i : S100352x512.Idx) :
    ∃ t : Fin cfg0.N, (cfg0.win 4).flush t = true ∧ i ∈ ((cfg0.win 4).blk t).view.set := by
  have hN : cfg0.N = 98 := N_0
  have hi0 : (i 0).val < 100352 := (i 0).isLt
  have hi1 : (i 1).val < 512 := (i 1).isLt
  let t : Fin cfg0.N := ⟨(i 0).val / 1024, by omega⟩
  obtain ⟨e0, e1, e2, e3, e4, e5, e6, e7, e8, e9⟩ := edge_idx t
  refine ⟨t, flush0_4 t, ?_⟩
  rw [edge_mem_blk]
  intro a
  have ht : t.val = (i 0).val / 1024 := rfl
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 512 ≤ (i 1).val ∧ (i 1).val < win0_4.index t (1 : Fin 2) * 512 + 512; omega

/-- The result array after the launch: the edge layer of the arrays the launch was entered with. -/
theorem edge_array  (c : Dev nD) : (dat0 V c).arrAt 4 cfg0.N = edgeArr V c :=
  (dat0 V c).arrAt_eq_of_cover 4 (edgeArr V c) (fun t _ => edge_flushed V  c t) (edge_cover)

end Cert.KernelIdeal.Arrays

end
-- ==== Proof.NodeArray.lean ====
/-
  The node launch's two output arrays, each as one function of the arrays the launch is entered with.

  The launch walks 250 grid points; point t stages rows 400 t … 400 t + 399 of the three row-indexed operands
  (the nodes' inputs, the children's summed hidden states, the children's reduced cell states) and of the mask
  column, the whole of the two weight matrices and of the bias row, and writes back rows 400 t … 400 t + 399 of
  the new hidden state and of the new cell state. A row of the gates, of the new cell state and of the new hidden
  state depends on the row-indexed operands only through that row, so what point t writes back is block t of the
  layer of the WHOLE arrays; the 250 blocks tile the 100000 rows, so each array ends holding that layer.
-/
import proofs.«113256_j30855045054488_1_alg».proof.Proof.Gen.KernelIdeal.Frame
import proofs.«113256_j30855045054488_1_alg».proof.Proof.TreeCellRows
import proofs.«113256_j30855045054488_1_alg».proof.Proof.KernelBodies
import proofs.«113256_j30855045054488_1_alg».proof.Proof.EdgeArray
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.TreeCell
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- The printed index maps over the 250 points: the row-indexed windows (the three row blocks, the mask column and
    the two outputs) sit at block (t, 0), the two weight matrices and the bias row at block (0, 0). -/
theorem node_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-! ## What each staged block holds -/

/-- Row p of point t's block of x is row 400 t + p of x. -/
theorem blk1_0 (c : Dev nD) (t : Fin cfg1.N) (p : Fin 400) (q : Fin 512) (h : t.val * 400 + p.val < 100000) :
    iblk1 V c 0 t (ix2 p q) = V c main_arg0 (ix2 ⟨t.val * 400 + p.val, h⟩ q) := by
  obtain ⟨e0, e1, -⟩ := node_idx t
  show V c main_arg0 (((cfg1.win 0).blk t).view.emb (ix2 p q)) = V c main_arg0 (ix2 ⟨t.val * 400 + p.val, h⟩ q)
  refine congrArg _ (funext fun a => Fin.ext ?_)
  match a with
  | ⟨0, _⟩ => show win1_0.index t (0 : Fin 2) * 400 + 1 * p.val = t.val * 400 + p.val; omega
  | ⟨1, _⟩ => show win1_0.index t (1 : Fin 2) * 512 + 1 * q.val = q.val; omega

/-- Row p of point t's block of the children's summed hidden states is row 400 t + p of that array. -/
theorem blk1_1 (c : Dev nD) (t : Fin cfg1.N) (p : Fin 400) (q : Fin 512) (h : t.val * 400 + p.val < 100000) :
    iblk1 V c 1 t (ix2 p q) = V c main_call0_v22 (ix2 ⟨t.val * 400 + p.val, h⟩ q) := by
  obtain ⟨-, -, e0, e1, -⟩ := node_idx t
  show V c main_call0_v22 (((cfg1.win 1).blk t).view.emb (ix2 p q)) = V c main_call0_v22 (ix2 ⟨t.val * 400 + p.val, h⟩ q)
  refine congrArg _ (funext fun a => Fin.ext ?_)
  match a with
  | ⟨0, _⟩ => show win1_1.index t (0 : Fin 2) * 400 + 1 * p.val = t.val * 400 + p.val; omega
  | ⟨1, _⟩ => show win1_1.index t (1 : Fin 2) * 512 + 1 * q.val = q.val; omega

/-- Row p of point t's block of the children's reduced cell states is row 400 t + p of that array. -/
theorem blk1_2 (c : Dev nD) (t : Fin cfg1.N) (p : Fin 400) (q : Fin 512) (h : t.val * 400 + p.val < 100000) :
    iblk1 V c 2 t (ix2 p q) = V c main_call0_v25 (ix2 ⟨t.val * 400 + p.val, h⟩ q) := by
  obtain ⟨-, -, -, -, e0, e1, -⟩ := node_idx t
  show V c main_call0_v25 (((cfg1.win 2).blk t).view.emb (ix2 p q)) = V c main_call0_v25 (ix2 ⟨t.val * 400 + p.val, h⟩ q)
  refine congrArg _ (funext fun a => Fin.ext ?_)
  match a with
  | ⟨0, _⟩ => show win1_2.index t (0 : Fin 2) * 400 + 1 * p.val = t.val * 400 + p.val; omega
  | ⟨1, _⟩ => show win1_2.index t (1 : Fin 2) * 512 + 1 * q.val = q.val; omega

/-- Entry p of point t's block of the mask column is entry 400 t + p of the column. -/
theorem blk1_3 (c : Dev nD) (t : Fin cfg1.N) (p : Fin 400) (h : t.val * 400 + p.val < 100000) :
    iblk1 V c 3 t (ix2 p (0 : Fin 1)) = V c main_call0_v33 (ix2 ⟨t.val * 400 + p.val, h⟩ (0 : Fin 1)) := by
  obtain ⟨-, -, -, -, -, -, e0, e1, -⟩ := node_idx t
  show V c main_call0_v33 (((cfg1.win 3).blk t).view.emb (ix2 p (0 : Fin 1))) = V c main_call0_v33 (ix2 ⟨t.val * 400 + p.val, h⟩ (0 : Fin 1))
  refine congrArg _ (funext fun a => Fin.ext ?_)
  match a with
  | ⟨0, _⟩ => show win1_3.index t (0 : Fin 2) * 400 + 1 * p.val = t.val * 400 + p.val; omega
  | ⟨1, _⟩ => show win1_3.index t (1 : Fin 2) * 1 + 1 * 0 = 0; omega

/-- Every point stages the whole first weight matrix. -/
theorem blk1_4 (c : Dev nD) (t : Fin cfg1.N) (k : Fin 512) (q : Fin 1536) :
    iblk1 V c 4 t (ix2 k q) = V c main_call0_v35 (ix2 k q) := by
  obtain ⟨-, -, -, -, -, -, -, -, e0, e1, -⟩ := node_idx t
  show V c main_call0_v35 (((cfg1.win 4).blk t).view.emb (ix2 k q)) = V c main_call0_v35 (ix2 k q)
  refine congrArg _ (funext fun a => Fin.ext ?_)
  match a with
  | ⟨0, _⟩ => show win1_4.index t (0 : Fin 2) * 512 + 1 * k.val = k.val; omega
  | ⟨1, _⟩ => show win1_4.index t (1 : Fin 2) * 1536 + 1 * q.val = q.val; omega

/-- Every point stages the whole second weight matrix. -/
theorem blk1_5 (c : Dev nD) (t : Fin cfg1.N) (k : Fin 512) (q : Fin 1536) :
    iblk1 V c 5 t (ix2 k q) = V c main_call0_v34 (ix2 k q) := by
  obtain ⟨-, -, -, -, -, -, -, -, -, -, e0, e1, -⟩ := node_idx t
  show V c main_call0_v34 (((cfg1.win 5).blk t).view.emb (ix2 k q)) = V c main_call0_v34 (ix2 k q)
  refine congrArg _ (funext fun a => Fin.ext ?_)
  match a with
  | ⟨0, _⟩ => show win1_5.index t (0 : Fin 2) * 512 + 1 * k.val = k.val; omega
  | ⟨1, _⟩ => show win1_5.index t (1 : Fin 2) * 1536 + 1 * q.val = q.val; omega

/-- Every point stages the whole bias row. -/
theorem blk1_6 (c : Dev nD) (t : Fin cfg1.N) (q : Fin 1536) :
    iblk1 V c 6 t (ix2 (0 : Fin 1) q) = V c main_call0_v36 (ix2 (0 : Fin 1) q) := by
  obtain ⟨-, -, -, -, -, -, -, -, -, -, -, -, e0, e1, -⟩ := node_idx t
  show V c main_call0_v36 (((cfg1.win 6).blk t).view.emb (ix2 (0 : Fin 1) q)) = V c main_call0_v36 (ix2 (0 : Fin 1) q)
  refine congrArg _ (funext fun a => Fin.ext ?_)
  match a with
  | ⟨0, _⟩ => show win1_6.index t (0 : Fin 2) * 1 + 1 * 0 = 0; omega
  | ⟨1, _⟩ => show win1_6.index t (1 : Fin 2) * 1536 + 1 * q.val = q.val; omega

/-! ## The layers of the whole arrays -/

/-- The gates' pre-activations of the arrays the launch is entered with. -/
abbrev nodeGates (c : Dev nD) : (⟨2, ![100000, 1536]⟩ : Shape).Idx → EReal :=
  gates (V c main_arg0) (V c main_call0_v22) (V c main_call0_v33) (V c main_call0_v35) (V c main_call0_v34) (V c main_call0_v36)

/-- The new cell state of the arrays the launch is entered with. -/
abbrev nodeC (c : Dev nD) : S100000x512.Idx → EReal :=
  cellC (nodeGates V c) (V c main_call0_v33) (V c main_call0_v25)

/-- The new hidden state of the arrays the launch is entered with. -/
abbrev nodeH (c : Dev nD) : S100000x512.Idx → EReal :=
  cellH (nodeGates V c) (nodeC V c)

/-- Row p of the gates computed on point t's blocks is row 400 t + p of the gates of the whole arrays. -/
theorem node_gates_blk (c : Dev nD) (t : Fin cfg1.N) (p : Fin 400) (k : Fin 1536) (h : t.val * 400 + p.val < 100000) :
    gates (N := 400) (iblk1 V c 0 t) (iblk1 V c 1 t) (iblk1 V c 3 t) (iblk1 V c 4 t) (iblk1 V c 5 t) (iblk1 V c 6 t) (ix2 p k)
      = nodeGates V c (ix2 ⟨t.val * 400 + p.val, h⟩ k) :=
  gates_block _ _ _ _ _ _ _ _ _ _ _ _ p k ⟨t.val * 400 + p.val, h⟩ (fun q => blk1_0 V c t p q h) (fun q => blk1_1 V c t p q h)
    (blk1_3 V c t p h) (fun q => blk1_4 V c t q k) (fun q => blk1_5 V c t q k) (blk1_6 V c t k)

/-- Row p of the new cell state computed on point t's blocks is row 400 t + p of that of the whole arrays. -/
theorem node_c_blk (c : Dev nD) (t : Fin cfg1.N) (p : Fin 400) (q : Fin 512) (h : t.val * 400 + p.val < 100000) :
    cellC (N := 400) (gates (N := 400) (iblk1 V c 0 t) (iblk1 V c 1 t) (iblk1 V c 3 t) (iblk1 V c 4 t) (iblk1 V c 5 t) (iblk1 V c 6 t))
        (iblk1 V c 3 t) (iblk1 V c 2 t) (ix2 p q)
      = nodeC V c (ix2 ⟨t.val * 400 + p.val, h⟩ q) :=
  cellC_block _ _ _ _ _ _ p q ⟨t.val * 400 + p.val, h⟩ (fun k => node_gates_blk V c t p k h) (blk1_3 V c t p h) (blk1_2 V c t p q h)

/-- Row p of the new hidden state computed on point t's blocks is row 400 t + p of that of the whole arrays. -/
theorem node_h_blk (c : Dev nD) (t : Fin cfg1.N) (p : Fin 400) (q : Fin 512) (h : t.val * 400 + p.val < 100000) :
    cellH (N := 400) (gates (N := 400) (iblk1 V c 0 t) (iblk1 V c 1 t) (iblk1 V c 3 t) (iblk1 V c 4 t) (iblk1 V c 5 t) (iblk1 V c 6 t))
        (cellC (N := 400) (gates (N := 400) (iblk1 V c 0 t) (iblk1 V c 1 t) (iblk1 V c 3 t) (iblk1 V c 4 t) (iblk1 V c 5 t) (iblk1 V c 6 t))
          (iblk1 V c 3 t) (iblk1 V c 2 t)) (ix2 p q)
      = nodeH V c (ix2 ⟨t.val * 400 + p.val, h⟩ q) :=
  cellH_block _ _ _ _ p q ⟨t.val * 400 + p.val, h⟩ (fun k => node_gates_blk V c t p k h) (node_c_blk V c t p q h)

/-! ## What each point writes back -/

/-- What point t writes back to the cell-state array is block t of the new cell state of the whole arrays. -/
theorem node_c_flushed (c : Dev nD) (t : Fin cfg1.N) :
    (dat1 V c).flushed 8 t = ((cfg1.win 8).blk t).view.read (Elt Ideal) (nodeC V c) := by
  show (cfg1.win 8).cut (grid1.coords t) ((dat1 V c).after 8 t) = _
  rw [after1_8]
  unfold out1_8
  rw [View.canon_unit_zero zeros2]
  simp only [View.ld_unit_zero (S := S400x512) zeros2, View.ld_unit_zero (S := S400x1) zeros2,
    View.ld_unit_zero (S := S512x1536) zeros2, View.ld_unit_zero (S := S1x1536) zeros2]
  rw [Bodies.node_c_body]
  obtain ⟨-, -, -, -, -, -, -, -, -, -, -, -, -, -, -, -, e0, e1⟩ := node_idx t
  funext j
  obtain ⟨p, q, rfl⟩ : ∃ (p : Fin 400) (q : Fin 512), j = ix2 p q := ⟨j 0, j 1, eq_ix2 j⟩
  have hN : cfg1.N = 250 := N_1
  have hrow : t.val * 400 + p.val < 100000 := by have := t.isLt; have := p.isLt; omega
  have hemb : ((cfg1.win 8).blk t).view.emb (ix2 p q) = ix2 (⟨t.val * 400 + p.val, hrow⟩ : Fin 100000) q := by
    funext a; apply Fin.ext
    match a with
    | ⟨0, _⟩ => show win1_8.index t (0 : Fin 2) * 400 + 1 * p.val = t.val * 400 + p.val; omega
    | ⟨1, _⟩ => show win1_8.index t (1 : Fin 2) * 512 + 1 * q.val = q.val; omega
  show cellC (N := 400) (gates (N := 400) (iblk1 V c 0 t) (iblk1 V c 1 t) (iblk1 V c 3 t) (iblk1 V c 4 t) (iblk1 V c 5 t) (iblk1 V c 6 t))
      (iblk1 V c 3 t) (iblk1 V c 2 t) (ix2 p q)
    = nodeC V c (((cfg1.win 8).blk t).view.emb (ix2 p q))
  rw [hemb]
  exact node_c_blk V c t p q hrow

/-- What point t writes back to the hidden-state array is block t of the new hidden state of the whole arrays. -/
theorem node_h_flushed (c : Dev nD) (t : Fin cfg1.N) :
    (dat1 V c).flushed 7 t = ((cfg1.win 7).blk t).view.read (Elt Ideal) (nodeH V c) := by
  show (cfg1.win 7).cut (grid1.coords t) ((dat1 V c).after 7 t) = _
  rw [after1_7]
  unfold out1_7
  rw [View.canon_unit_zero zeros2]
  simp only [View.ld_unit_zero (S := S400x512) zeros2, View.ld_unit_zero (S := S400x1) zeros2,
    View.ld_unit_zero (S := S512x1536) zeros2, View.ld_unit_zero (S := S1x1536) zeros2]
  rw [Bodies.node_h_body]
  obtain ⟨-, -, -, -, -, -, -, -, -, -, -, -, -, -, e0, e1, -⟩ := node_idx t
  funext j
  obtain ⟨p, q, rfl⟩ : ∃ (p : Fin 400) (q : Fin 512), j = ix2 p q := ⟨j 0, j 1, eq_ix2 j⟩
  have hN : cfg1.N = 250 := N_1
  have hrow : t.val * 400 + p.val < 100000 := by have := t.isLt; have := p.isLt; omega
  have hemb : ((cfg1.win 7).blk t).view.emb (ix2 p q) = ix2 (⟨t.val * 400 + p.val, hrow⟩ : Fin 100000) q := by
    funext a; apply Fin.ext
    match a with
    | ⟨0, _⟩ => show win1_7.index t (0 : Fin 2) * 400 + 1 * p.val = t.val * 400 + p.val; omega
    | ⟨1, _⟩ => show win1_7.index t (1 : Fin 2) * 512 + 1 * q.val = q.val; omega
  show cellH (N := 400) (gates (N := 400) (iblk1 V c 0 t) (iblk1 V c 1 t) (iblk1 V c 3 t) (iblk1 V c 4 t) (iblk1 V c 5 t) (iblk1 V c 6 t))
      (cellC (N := 400) (gates (N := 400) (iblk1 V c 0 t) (iblk1 V c 1 t) (iblk1 V c 3 t) (iblk1 V c 4 t) (iblk1 V c 5 t) (iblk1 V c 6 t))
        (iblk1 V c 3 t) (iblk1 V c 2 t)) (ix2 p q)
    = nodeH V c (((cfg1.win 7).blk t).view.emb (ix2 p q))
  rw [hemb]
  exact node_h_blk V c t p q hrow

/-! ## The blocks tile the rows -/

/-- An index of the hidden-state array is in point t's block iff each coordinate is in the block's range on its axis. -/
theorem node_mem_blk7 (t : Fin cfg1.N) (i : S100000x512.Idx) :
    i ∈ ((cfg1.win 7).blk t).view.set ↔ ∀ a : Fin 2, win1_7.index t a * S400x512.size a ≤ (i a).val ∧ (i a).val < win1_7.index t a * S400x512.size a + S400x512.size a := by
  show i ∈ ((View.whole main_v0_0).slice (win1_7.rect t)).set ↔ _
  rw [View.set_slice_whole, Rect.mem_set_unit]
  exact Iff.rfl

/-- An index of the cell-state array is in point t's block iff each coordinate is in the block's range on its axis. -/
theorem node_mem_blk8 (t : Fin cfg1.N) (i : S100000x512.Idx) :
    i ∈ ((cfg1.win 8).blk t).view.set ↔ ∀ a : Fin 2, win1_8.index t a * S400x512.size a ≤ (i a).val ∧ (i a).val < win1_8.index t a * S400x512.size a + S400x512.size a := by
  show i ∈ ((View.whole main_v0_1).slice (win1_8.rect t)).set ↔ _
  rw [View.set_slice_whole, Rect.mem_set_unit]
  exact Iff.rfl

/-- Every row of the hidden-state array lies in the block of the point row / 400. -/
theorem node_cover7 (i : S100000x512.Idx) :
    ∃ t : Fin cfg1.N, (cfg1.win 7).flush t = true ∧ i ∈ ((cfg1.win 7).blk t).view.set := by
  have hN : cfg1.N = 250 := N_1
  have hi0 : (i 0).val < 100000 := (i 0).isLt
  have hi1 : (i 1).val < 512 := (i 1).isLt
  let t : Fin cfg1.N := ⟨(i 0).val / 400, by omega⟩
  obtain ⟨-, -, -, -, -, -, -, -, -, -, -, -, -, -, e0, e1, -⟩ := node_idx t
  refine ⟨t, flush1_7 t, ?_⟩
  rw [node_mem_blk7]
  intro a
  have ht : t.val = (i 0).val / 400 := rfl
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 512 ≤ (i 1).val ∧ (i 1).val < win1_7.index t (1 : Fin 2) * 512 + 512; omega

/-- Every row of the cell-state array lies in the block of the point row / 400. -/
theorem node_cover8 (i : S100000x512.Idx) :
    ∃ t : Fin cfg1.N, (cfg1.win 8).flush t = true ∧ i ∈ ((cfg1.win 8).blk t).view.set := by
  have hN : cfg1.N = 250 := N_1
  have hi0 : (i 0).val < 100000 := (i 0).isLt
  have hi1 : (i 1).val < 512 := (i 1).isLt
  let t : Fin cfg1.N := ⟨(i 0).val / 400, by omega⟩
  obtain ⟨-, -, -, -, -, -, -, -, -, -, -, -, -, -, -, -, e0, e1⟩ := node_idx t
  refine ⟨t, flush1_8 t, ?_⟩
  rw [node_mem_blk8]
  intro a
  have ht : t.val = (i 0).val / 400 := rfl
  match a with
  | ⟨0, _⟩ => show win1_8.index t (0 : Fin 2) * 400 ≤ (i 0).val ∧ (i 0).val < win1_8.index t (0 : Fin 2) * 400 + 400; omega
  | ⟨1, _⟩ => show win1_8.index t (1 : Fin 2) * 512 ≤ (i 1).val ∧ (i 1).val < win1_8.index t (1 : Fin 2) * 512 + 512; omega

/-! ## The two arrays after the launch -/

/-- The cell-state array after the launch: the new cell state of the arrays the launch was entered with. -/
theorem node_c_array (c : Dev nD) : (dat1 V c).arrAt 8 cfg1.N = nodeC V c :=
  (dat1 V c).arrAt_eq_of_cover 8 (nodeC V c) (fun t _ => node_c_flushed V c t) (node_cover8)

/-- The hidden-state array after the launch: the new hidden state of the arrays the launch was entered with. -/
theorem node_h_array (c : Dev nD) : (dat1 V c).arrAt 7 cfg1.N = nodeH V c :=
  (dat1 V c).arrAt_eq_of_cover 7 (nodeH V c) (fun t _ => node_h_flushed V c t) (node_cover7)

end Cert.KernelIdeal.Arrays

end
-- ==== Proof.RefLayers.lean ====
/-
  The reference program's layers are the child-sum tree-LSTM cell of `Cert.TreeCell`, at the extended reals.

  The reference computes, one array operation at a time,
    * on the edges: the forget gate `1 / (1 + exp (-(h_src · U_f_wᵀ + b)))` times the child's cell state;
    * on the nodes: the gates' pre-activations, `where (has_child, h̃ · U_iouᵀ, x · W_iouᵀ) + b_iou`,
      the new cell state `σ(i) * tanh(u) + where (has_child, c_red, 0)` and the new hidden state `σ(o) * tanh(c)`.
  Read entry by entry these are `edgeOut`, `gates`, `cellC` and `cellH`:
    * `1 / (1 + exp (-x))` is the logistic function by definition, once the float pattern of one is read as `1`;
    * a `dot_general` contracting the second axis of the left operand with the first of the right is the
      matrix product `prod`;
    * a selection by a one-bit flag `b` between `a` and `c` is `v * a + (1 - v) * c` for the flag's value
      `v ∈ {0, 1}` (`Cert.TreeCell.choose`), and between `a` and `0` it is `v * a` (`Cert.TreeCell.keep`);
    * a slice of columns `o … o + 511` read at column `j` is the array at column `o + j`, and a row `[1, n]`
      or a column `[m, 1]` broadcast over the other axis is read at its one row or column.
  The gathered children's states and their sums per parent enter both sides of every equation as the same
  functions of the inputs; nothing about them is used.
-/
import proofs.«113256_j30855045054488_1_alg».proof.Proof.RefRead
import proofs.«113256_j30855045054488_1_alg».proof.Proof.TreeCell
import proofs.«113256_j30855045054488_1_alg».proof.Proof.LibDenseLayer
import proofs.«113256_j30855045054488_1_alg».proof.Proof.LibMatProd
import Idealize.ShloMosaic.Lib.ValueIdx
import Idealize.ShloMosaic.Lib.IdealHost
import Idealize.ShloMosaic.PureOps.Ideal.Laws

noncomputable section

namespace Cert.ReferenceIdeal.Layers

open Cert.ReferenceIdeal Cert.ReferenceIdeal.Read Cert.TreeCell Cert.Lib.MatProd Idealize.ShloMosaic Idealize.ShloMosaic.ValueIdx

/-! ## Scalars: the logistic function as the reference spells it, and a one-bit flag's value -/

/-- `1 / (1 + exp (-x))`, with both ones given as the float pattern of one, is the logistic function. -/
theorem logistic_spelt (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  rw [Ideal.ofBits_def, Ideal.ofBits_one_f32]
  rfl

/-- The value of a one-bit flag as an extended real: `1` if the bit is set, `0` if not. -/
theorem flag_value (b : BitVec 1) :
    FloatOps.uitofp (F := Ideal) .f32 b = if decide (b = 1#1) then (1 : EReal) else 0 := by
  rcases BitVec.eq_zero_or_eq_one b with h | h <;> subst h
  · show (((0#1 : BitVec 1).toNat : ℝ) : EReal) = 0
    simp
  · show (((1#1 : BitVec 1).toNat : ℝ) : EReal) = 1
    simp

/-- A selection by a one-bit flag is the selection by "the bit is set". -/
theorem select_flag {α : Type} (b : BitVec 1) (a c : α) :
    Scalar.select b a c = if decide (b = 1#1) then a else c := by
  rcases BitVec.eq_zero_or_eq_one b with h | h <;> subst h
  · rw [select_zero]; rfl
  · rw [select_one]; rfl

/-- Selecting between `a` and `c` by a flag of value `v` is `v * a + (1 - v) * c`. -/
theorem select_choose (b : BitVec 1) (a c : EReal) :
    Scalar.select b a c
      = FloatOps.uitofp (F := Ideal) .f32 b * a + (1 - FloatOps.uitofp (F := Ideal) .f32 b) * c := by
  rw [select_flag, flag_value, choose]

/-- Selecting between `a` and the float pattern of zero by a flag of value `v` is `v * a`. -/
theorem select_keep (b : BitVec 1) (a : EReal) :
    Scalar.select b a (FloatOps.ofBits (F := Ideal) .f32 0x00000000#32) = FloatOps.uitofp (F := Ideal) .f32 b * a := by
  rw [Ideal.ofBits_def, Ideal.ofBits_zero_f32, select_flag, flag_value, keep]

/-! ## The two matrix products -/

/-- The edges' product: the gathered hidden states times the transposed forget weights. -/
theorem v15_eq_prod (x1 : (⟨S100000x512, .f32⟩ : BufTy).Contents (Elt Ideal)) (x3 : (⟨S99999, .i32⟩ : BufTy).Contents (Elt Ideal)) (x8 : (⟨S512x512, .f32⟩ : BufTy).Contents (Elt Ideal)) :
    val_main_v15 (F := Ideal) x1 x3 x8 = prod (val_main_v6 (F := Ideal) x1 x3) (val_main_v14 (F := Ideal) x8) := by
  unfold val_main_v15
  exact dotGeneral_eq_prod (φ₁ := .f32) (φ₂ := .f32) dot_S99999x512_S512x512_S99999x512_1_0_0_1_n_n rfl rfl
    lhs_main_v15_0 lhs_main_v15_1 rhs_main_v15_0 rhs_main_v15_1 none _ _

/-- The nodes' product on the children's summed hidden states. -/
theorem v40_eq_prod (x1 : (⟨S100000x512, .f32⟩ : BufTy).Contents (Elt Ideal)) (x3 x4 : (⟨S99999, .i32⟩ : BufTy).Contents (Elt Ideal)) (x6 : (⟨S1536x512, .f32⟩ : BufTy).Contents (Elt Ideal)) :
    val_main_v40 (F := Ideal) x1 x3 x4 x6 = prod (val_main_v27 (F := Ideal) x1 x3 x4) (val_main_v39 (F := Ideal) x6) := by
  unfold val_main_v40
  exact dotGeneral_eq_prod (φ₁ := .f32) (φ₂ := .f32) dot_S100000x512_S512x1536_S100000x1536_1_0_0_1_n_n rfl rfl
    lhs_main_v40_0 lhs_main_v40_1 rhs_main_v40_0 rhs_main_v40_1 none _ _

/-- The nodes' product on their own inputs. -/
theorem v42_eq_prod (x0 : (⟨S100000x512, .f32⟩ : BufTy).Contents (Elt Ideal)) (x5 : (⟨S1536x512, .f32⟩ : BufTy).Contents (Elt Ideal)) :
    val_main_v42 (F := Ideal) x0 x5 = prod x0 (val_main_v41 (F := Ideal) x5) := by
  unfold val_main_v42
  exact dotGeneral_eq_prod (φ₁ := .f32) (φ₂ := .f32) dot_S100000x512_S512x1536_S100000x1536_1_0_0_1_n_n rfl rfl
    lhs_main_v42_0 lhs_main_v42_1 rhs_main_v42_0 rhs_main_v42_1 none _ _

/-! ## The four layers -/

/-- The new hidden state: the output gate (columns 512 … 1023 of the gates) times `tanh` of the new cell state. -/
theorem ref_h (x0 x1 x2 : (⟨S100000x512, .f32⟩ : BufTy).Contents (Elt Ideal)) (x3 x4 : (⟨S99999, .i32⟩ : BufTy).Contents (Elt Ideal)) (x5 x6 : (⟨S1536x512, .f32⟩ : BufTy).Contents (Elt Ideal)) (x7 : (⟨S1536, .f32⟩ : BufTy).Contents (Elt Ideal)) (x8 : (⟨S512x512, .f32⟩ : BufTy).Contents (Elt Ideal)) (x9 : (⟨S512, .f32⟩ : BufTy).Contents (Elt Ideal)) :
    val_main_v67 (F := Ideal) x0 x1 x2 x3 x4 x5 x6 x7 x8 x9
      = cellH (val_main_v46 (F := Ideal) x0 x1 x3 x4 x5 x6 x7) (val_main_v59 (F := Ideal) x0 x1 x2 x3 x4 x5 x6 x7 x8 x9) := by
  funext i
  obtain ⟨n, j, rfl⟩ : ∃ (n : Fin 100000) (j : Fin 512), i = ix2 n j := ⟨i 0, i 1, eq_ix2 i⟩
  have e48 : idx_main_v48 (ix2 n j) = ix2 n (col 512 (by omega) j) := by
    funext a; match a with | ⟨0, _⟩ => rfl | ⟨1, _⟩ => rfl
  rw [cellH_apply, val_main_v67_apply, val_main_v66_apply, val_main_v65_apply, val_main_v64_apply, val_main_cst_13_apply,
    val_main_v63_apply, val_main_v62_apply, val_main_cst_12_apply, val_main_v61_apply, val_main_v60_apply,
    val_main_v48_apply, e48, logistic_spelt]
  generalize val_main_v46 (F := Ideal) x0 x1 x3 x4 x5 x6 x7 = g
  generalize val_main_v59 (F := Ideal) x0 x1 x2 x3 x4 x5 x6 x7 x8 x9 = c
  rfl

/-- The new cell state: the input gate (columns 0 … 511) times `tanh` of the update (columns 1024 … 1535), plus the
    children's gated cell states where the node has a child. -/
theorem ref_c (x0 x1 x2 : (⟨S100000x512, .f32⟩ : BufTy).Contents (Elt Ideal)) (x3 x4 : (⟨S99999, .i32⟩ : BufTy).Contents (Elt Ideal)) (x5 x6 : (⟨S1536x512, .f32⟩ : BufTy).Contents (Elt Ideal)) (x7 : (⟨S1536, .f32⟩ : BufTy).Contents (Elt Ideal)) (x8 : (⟨S512x512, .f32⟩ : BufTy).Contents (Elt Ideal)) (x9 : (⟨S512, .f32⟩ : BufTy).Contents (Elt Ideal)) :
    val_main_v59 (F := Ideal) x0 x1 x2 x3 x4 x5 x6 x7 x8 x9
      = cellC (val_main_v46 (F := Ideal) x0 x1 x3 x4 x5 x6 x7) (uitofp (F := Ideal) .f32 (val_main_v38 (F := Ideal) x4))
          (val_main_v31 (F := Ideal) x1 x2 x3 x4 x8 x9) := by
  funext i
  obtain ⟨n, j, rfl⟩ : ∃ (n : Fin 100000) (j : Fin 512), i = ix2 n j := ⟨i 0, i 1, eq_ix2 i⟩
  have e47 : idx_main_v47 (ix2 n j) = ix2 n (col 0 (by omega) j) := by
    funext a; match a with | ⟨0, _⟩ => rfl | ⟨1, _⟩ => exact Fin.ext (Nat.zero_add j.val).symm
  have e49 : idx_main_v49 (ix2 n j) = ix2 n (col 1024 (by omega) j) := by
    funext a; match a with | ⟨0, _⟩ => rfl | ⟨1, _⟩ => rfl
  have ef : idx_main_call1_v1 (ix2 n j) = ix2 n (0 : Fin 1) := by
    funext a; match a with | ⟨0, _⟩ => rfl | ⟨1, _⟩ => rfl
  rw [cellC_apply, val_main_v59_apply, val_main_v57_apply, val_main_v55_apply, val_main_v54_apply, val_main_cst_10_apply,
    val_main_v53_apply, val_main_v52_apply, val_main_cst_9_apply, val_main_v51_apply, val_main_v50_apply,
    val_main_v47_apply, e47, logistic_spelt, val_main_v56_apply, val_main_v49_apply, e49,
    val_main_v58_apply, val_main_call1_v1_apply, ef, val_main_call1_v2_apply, val_main_call1_v0_apply,
    val_main_cst_11_apply, select_keep]
  generalize val_main_v46 (F := Ideal) x0 x1 x3 x4 x5 x6 x7 = g
  generalize val_main_v38 (F := Ideal) x4 = m
  generalize val_main_v31 (F := Ideal) x1 x2 x3 x4 x8 x9 = cr
  rfl

/-- The gates' pre-activations: by the has-a-child flag, the product on the children's summed hidden states or the
    product on the node's own input, plus the bias. -/
theorem ref_gates (x0 x1 : (⟨S100000x512, .f32⟩ : BufTy).Contents (Elt Ideal)) (x3 x4 : (⟨S99999, .i32⟩ : BufTy).Contents (Elt Ideal)) (x5 x6 : (⟨S1536x512, .f32⟩ : BufTy).Contents (Elt Ideal)) (x7 : (⟨S1536, .f32⟩ : BufTy).Contents (Elt Ideal)) :
    val_main_v46 (F := Ideal) x0 x1 x3 x4 x5 x6 x7
      = gates x0 (val_main_v27 (F := Ideal) x1 x3 x4) (uitofp (F := Ideal) .f32 (val_main_v38 (F := Ideal) x4))
          (val_main_v39 (F := Ideal) x6) (val_main_v41 (F := Ideal) x5) (val_main_v44 (F := Ideal) x7) := by
  funext i
  obtain ⟨n, k, rfl⟩ : ∃ (n : Fin 100000) (k : Fin 1536), i = ix2 n k := ⟨i 0, i 1, eq_ix2 i⟩
  have ef : idx_main_call0_v0 (ix2 n k) = ix2 n (0 : Fin 1) := by
    funext a; match a with | ⟨0, _⟩ => rfl | ⟨1, _⟩ => rfl
  have eb : idx_main_v45 (ix2 n k) = ix2 (0 : Fin 1) k := by
    funext a; match a with | ⟨0, _⟩ => rfl | ⟨1, _⟩ => rfl
  rw [gates_apply, val_main_v46_apply, val_main_v43_apply, val_main_call0_v0_apply, ef, val_main_v45_apply, eb,
    v40_eq_prod, v42_eq_prod, select_choose]
  generalize prod (val_main_v27 (F := Ideal) x1 x3 x4) (val_main_v39 (F := Ideal) x6) = P
  generalize prod x0 (val_main_v41 (F := Ideal) x5) = Q
  generalize val_main_v38 (F := Ideal) x4 = m
  generalize val_main_v44 (F := Ideal) x7 = b
  rfl

/-- The edges' layer: the forget gate of the child's hidden state times the child's cell state. -/
theorem ref_edge (x1 x2 : (⟨S100000x512, .f32⟩ : BufTy).Contents (Elt Ideal)) (x3 : (⟨S99999, .i32⟩ : BufTy).Contents (Elt Ideal)) (x8 : (⟨S512x512, .f32⟩ : BufTy).Contents (Elt Ideal)) (x9 : (⟨S512, .f32⟩ : BufTy).Contents (Elt Ideal)) :
    val_main_v28 (F := Ideal) x1 x2 x3 x8 x9
      = edgeOut (val_main_v6 (F := Ideal) x1 x3) (val_main_v13 (F := Ideal) x2 x3) (val_main_v14 (F := Ideal) x8)
          (val_main_v16 (F := Ideal) x9) := by
  funext i
  obtain ⟨e, j, rfl⟩ : ∃ (e : Fin 99999) (j : Fin 512), i = ix2 e j := ⟨i 0, i 1, eq_ix2 i⟩
  have eb : idx_main_v17 (ix2 e j) = ix2 (0 : Fin 1) j := by
    funext a; match a with | ⟨0, _⟩ => rfl | ⟨1, _⟩ => rfl
  rw [edgeOut_apply, val_main_v28_apply, val_main_v24_apply, val_main_v23_apply, val_main_cst_3_apply,
    val_main_v22_apply, val_main_v21_apply, val_main_cst_apply, val_main_v20_apply, val_main_v19_apply,
    logistic_spelt, val_main_v18_apply, val_main_v17_apply, eb, v15_eq_prod]
  generalize prod (val_main_v6 (F := Ideal) x1 x3) (val_main_v14 (F := Ideal) x8) = P
  generalize val_main_v13 (F := Ideal) x2 x3 = C
  generalize val_main_v16 (F := Ideal) x9 = b
  rfl

end Cert.ReferenceIdeal.Layers

end
-- ==== Proof.Bridge.lean ====
/-
  Four equalities between two spellings of the same array.

  * Rows appended below the row-indexed operands of the edge layer do not show in the rows kept: a row of the
    edge layer depends on the operands with a row axis only through that row, and a row `e < 99999` of an array
    padded below with 353 rows is row `e` of the array. So the first 99999 rows of the edge layer of the padded
    operands are the edge layer of the operands.
  * A vector `x` of `n ≠ 1` entries as the one row of a `[1, n]` array: the reshape reads `x` at the row-major
    position `0 * n + j = j`, the broadcast along axis 1 reads `x` at the column `j`. The same array.
  * A vector of `a` one-bit flags as a column `[a, 1]` of their 0/1 values: the values' reshape reads entry
    `i * 1 + 0 = i`, the flags' broadcast along axis 0 reads flag `i`, and taking the value entry by entry
    commutes with both.
-/
import proofs.«113256_j30855045054488_1_alg».proof.Proof.Gen.KernelIdeal
import proofs.«113256_j30855045054488_1_alg».proof.Proof.TreeCellRows
import Idealize.ShloMosaic.Lib.KernelVsHost
import Idealize.ShloMosaic.Lib.ValueLayout
import Idealize.ShloMosaic.Lib.Pipeline.Value
import Idealize.ShloMosaic.Lib.ValueIdx

noncomputable section

namespace Cert.KernelIdeal.Bridge

open Cert.KernelIdeal Cert.KernelIdeal.Gen Cert.TreeCell Idealize.ShloMosaic Idealize.ShloMosaic.ValueIdx

/-! ## General forms -/

/-- A vector `[a]` cast to a column `[a, 1]` reads, at `(i, u)`, the vector at `i`: the row-major position of
    `(i, u)` is `i * 1 + 0`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector of `n ≠ 1` entries as the one row of `[1, n]`: the reshape and the broadcast along axis 1 agree. -/
theorem row_cast_eq_bcast {α : Type} {n : ℕ} (hn : n ≠ 1) (x : (⟨1, ![n]⟩ : Shape).Idx → α)
    (hc : (⟨1, ![n]⟩ : Shape).ShapeCasts ⟨2, ![1, n]⟩)
    (h : (⟨1, ![n]⟩ : Shape).BroadcastsInDim ⟨2, ![1, n]⟩ ![1]) :
    shapeCast ⟨2, ![1, n]⟩ x hc = broadcastInDim ⟨2, ![1, n]⟩ ![1] h x := by
  funext i
  obtain ⟨u, j, rfl⟩ : ∃ (u : Fin 1) (j : Fin n), i = ix2 u j := ⟨i 0, i 1, eq_ix2 i⟩
  refine (shapeCast_a_1a_apply x hc u j).trans (Eq.symm ?_)
  exact broadcastInDim_apply ![1] h x (ix2 u j) (ix1 j) (fun a => match a with
    | ⟨0, _⟩ => by show j.val = if n = 1 then 0 else j.val; rw [if_neg hn])

/-- A vector of `a ≠ 1` one-bit flags as a column `[a, 1]` of their values: the reshape of the values is the values
    of the broadcast along axis 0. -/
theorem col_value_cast_eq_bcast {a : ℕ} (ha : a ≠ 1) (f : (⟨1, ![a]⟩ : Shape).Idx → BitVec 1)
    (hc : (⟨1, ![a]⟩ : Shape).ShapeCasts ⟨2, ![a, 1]⟩)
    (h : (⟨1, ![a]⟩ : Shape).BroadcastsInDim ⟨2, ![a, 1]⟩ ![0]) :
    shapeCast ⟨2, ![a, 1]⟩ (uitofp (F := Ideal) .f32 f) hc
      = uitofp (F := Ideal) .f32 (broadcastInDim ⟨2, ![a, 1]⟩ ![0] h f) := by
  funext i
  obtain ⟨n, u, rfl⟩ : ∃ (n : Fin a) (u : Fin 1), i = ix2 n u := ⟨i 0, i 1, eq_ix2 i⟩
  refine (shapeCast_a_a1_apply _ hc n u).trans ?_
  show FloatOps.uitofp (F := Ideal) .f32 (f (ix1 n))
    = FloatOps.uitofp (F := Ideal) .f32 (broadcastInDim ⟨2, ![a, 1]⟩ ![0] h f (ix2 n u))
  exact congrArg _ (broadcastInDim_apply ![0] h f (ix2 n u) (ix1 n) (fun b => match b with
    | ⟨0, _⟩ => by show n.val = if a = 1 then 0 else n.val; rw [if_neg ha])).symm

/-! ## At the program's shapes -/

/-- The first 99999 rows of the edge layer of the operands with 353 zero rows appended are the edge layer of the
    operands. -/
theorem kept_rows (HS CS : S99999x512.Idx → EReal) (W : S512x512.Idx → EReal) (b : S1x512.Idx → EReal) :
    extractStridedSlice S99999x512 ![0, 0]
        (edgeOut
          (pad S100352x512 ![0, 0] ![353, 0] ![0, 0] HS (sitofp (F := Ideal) .f32 (constantI S_ 32 0#32))
            pads_S99999x512_S100352x512_03530_000 h_S_)
          (pad S100352x512 ![0, 0] ![353, 0] ![0, 0] CS (sitofp (F := Ideal) .f32 (constantI S_ 32 0#32))
            pads_S99999x512_S100352x512_03530_000 h_S_) W b)
        slices_S100352x512_S99999x512_0_0
      = edgeOut HS CS W b := by
  funext i
  obtain ⟨e, q, rfl⟩ : ∃ (e : Fin 99999) (q : Fin 512), i = ix2 e q := ⟨i 0, i 1, eq_ix2 i⟩
  have he : e.val < 100352 := by have := e.isLt; omega
  have hrow : ∀ (X : S99999x512.Idx → EReal) (k : Fin 512),
      pad S100352x512 ![0, 0] ![353, 0] ![0, 0] X (sitofp (F := Ideal) .f32 (constantI S_ 32 0#32))
          pads_S99999x512_S100352x512_03530_000 h_S_ (ix2 (⟨e.val, he⟩ : Fin 100352) k) = X (ix2 e k) :=
    fun X k => pad_apply_of_inside _ _ _ X _ pads_S99999x512_S100352x512_03530_000 h_S_ _ (ix2 e k) (fun a => match a with
      | ⟨0, _⟩ => by show e.val = 0 + e.val * (0 + 1); omega
      | ⟨1, _⟩ => by show k.val = 0 + k.val * (0 + 1); omega)
  refine (slice2_axis0_apply 0 _ slices_S100352x512_S99999x512_0_0 e q (⟨e.val, he⟩ : Fin 100352)
    (Nat.zero_add _).symm).trans ?_
  exact edgeOut_block HS CS W b _ _ W b (⟨e.val, he⟩ : Fin 100352) q e (fun k => hrow HS k) (hrow CS q)
    (fun _ => rfl) rfl

/-- The forget gate's bias as one row: by reshape and by broadcast. -/
theorem row512 (x : S512.Idx → EReal) (h : S512.BroadcastsInDim S1x512 (![1] : Fin 1 → Fin S1x512.rank)) :
    shapeCast S1x512 x shapeCasts_S512_S1x512 = broadcastInDim S1x512 ![1] h x :=
  row_cast_eq_bcast (by decide) x shapeCasts_S512_S1x512 h

/-- The gates' bias as one row: by reshape and by broadcast. -/
theorem row1536 (x : S1536.Idx → EReal) (h : S1536.BroadcastsInDim S1x1536 (![1] : Fin 1 → Fin S1x1536.rank)) :
    shapeCast S1x1536 x shapeCasts_S1536_S1x1536 = broadcastInDim S1x1536 ![1] h x :=
  row_cast_eq_bcast (by decide) x shapeCasts_S1536_S1x1536 h

/-- The has-a-child flag's value as a column: the values reshaped, and the values of the flags broadcast. -/
theorem flag_column (f : S100000.Idx → BitVec 1)
    (h : S100000.BroadcastsInDim S100000x1 (![0] : Fin 1 → Fin S100000x1.rank)) :
    shapeCast S100000x1 (uitofp (F := Ideal) .f32 f) shapeCasts_S100000_S100000x1
      = uitofp (F := Ideal) .f32 (broadcastInDim S100000x1 ![0] h f) :=
  col_value_cast_eq_bcast (by decide) f shapeCasts_S100000_S100000x1 h

end Cert.KernelIdeal.Bridge

end
-- ==== Proof.KernelValue.lean ====
/-
  The idealized kernel's two result arrays are the reference's two results, as functions of the launch contents of
  the ten arguments.

  The node launch leaves in its two output arrays the cell's new hidden and cell state of the arrays it was entered
  with. Those arrays are: the node inputs; the per-parent sum of the children's hidden states — the reference's own
  stage —; the per-parent sum of the rows the edge launch left, which are the reference's gated child cell states
  (the zero rows appended for the launch's blocks do not show in the 99999 rows kept, and a row of the edge layer
  depends on the operands' rows only through that row); the "has a child" flag's 0/1 value as a column, which is the
  reference's flag column read numerically; the transposed gate weights, the reference's own; and the gate bias as one
  row, which a reshape and the reference's broadcast both make. On those operands the reference's selection by the
  flag IS the kernel's arithmetic on its 0/1 value: with the flag up `1 * a + (1 - 1) * c = a`, with it down
  `0 * a + 1 * c = c`, for all extended reals. So both programs compute the same cell of the same operands.
-/
import proofs.«113256_j30855045054488_1_alg».proof.Proof.HostChain
import proofs.«113256_j30855045054488_1_alg».proof.Proof.EdgeArray
import proofs.«113256_j30855045054488_1_alg».proof.Proof.NodeArray
import proofs.«113256_j30855045054488_1_alg».proof.Proof.RefLayers
import proofs.«113256_j30855045054488_1_alg».proof.Proof.Bridge

set_option maxRecDepth 16384

noncomputable section

namespace Cert.KernelIdeal.Result

open Cert.KernelIdeal Cert.KernelIdeal.Gen Cert.TreeCell
open Idealize.ShloMosaic Idealize.ShloMosaic.TcCoe Idealize.SL.Sem Idealize.ShloMosaic.ValueIdx
open Cert.ReferenceIdeal.Read (val_main_v6 val_main_v13 val_main_v14 val_main_v16 val_main_v27 val_main_v28 val_main_v31 val_main_v37
  val_main_v38 val_main_v39 val_main_v41 val_main_v44 val_main_v46 val_main_v59 val_main_v67)

variable (m : (ℓ : Loc nD τ sig) → Buf (Elt Ideal) ℓ) (ρ : Dev nD → PrngReg) (c : Dev nD)

/-- The 99999 rows kept of the edge launch's result are the reference's gated child cell states. -/
theorem kept_edge :
    extractStridedSlice S99999x512 ![0, 0] ((dat0 (V1 m ρ) c).arrAt 4 cfg0.N) slices_S100352x512_S99999x512_0_0
      = val_main_v28 (m ((c : Thread nD τ).loc main_arg1)) (m ((c : Thread nD τ).loc main_arg2)) (m ((c : Thread nD τ).loc main_arg3)) (m ((c : Thread nD τ).loc main_arg8)) (m ((c : Thread nD τ).loc main_arg9)) := by
  rw [Arrays.edge_array (V1 m ρ) c]
  show extractStridedSlice S99999x512 ![0, 0] (edgeOut (V1 m ρ c main_call0_v14) (V1 m ρ c main_call0_v15)
    (V1 m ρ c main_call0_v16) (V1 m ρ c main_call0_v17)) slices_S100352x512_S99999x512_0_0 = _
  rw [Host.V1_v14, Host.V1_v15, Host.V1_v16, Host.V1_v17,
    Bridge.row512 _ Cert.ReferenceIdeal.Facts₀.bcast_S512_S1x512_1, Bridge.kept_rows, Cert.ReferenceIdeal.Layers.ref_edge]
  rfl

/-- The per-parent sum of those rows is the reference's reduced cell state. -/
theorem cred : V3 m ρ c main_call0_v25
    = val_main_v31 (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  rw [Host.V3_v25, kept_edge]
  rfl

/-- The flag's 0/1 column the node launch is entered with is the reference's flag column read numerically. -/
theorem flagcol : V3 m ρ c main_call0_v33 = uitofp (F := Ideal) .f32 (val_main_v38 (m ((c : Thread nD τ).loc main_arg4))) := by
  rw [Host.V3_v33, Bridge.flag_column _ Cert.ReferenceIdeal.Facts₀.bcast_S100000_S100000x1_0]
  rfl

/-- The gate bias row the node launch is entered with is the reference's. -/
theorem biasrow : V3 m ρ c main_call0_v36 = val_main_v44 (m ((c : Thread nD τ).loc main_arg7)) := by
  rw [Host.V3_v36, Bridge.row1536 _ Cert.ReferenceIdeal.Facts₀.bcast_S1536_S1x1536_1]
  rfl

/-- The gates' pre-activations of the node launch's entry arrays are the reference's. -/
theorem gates_eq : Arrays.nodeGates (V3 m ρ) c
    = val_main_v46 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show gates (V3 m ρ c main_arg0) (V3 m ρ c main_call0_v22) (V3 m ρ c main_call0_v33) (V3 m ρ c main_call0_v35)
    (V3 m ρ c main_call0_v34) (V3 m ρ c main_call0_v36) = _
  rw [Host.V3_arg0, Host.V3_v22, flagcol, Host.V3_v35, Host.V3_v34, biasrow, Cert.ReferenceIdeal.Layers.ref_gates]

/-- The new cell state. -/
theorem result_c : W4 m ρ c (Proc.devRef .tc main_v0_1)
    = val_main_v59 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 8).trans ?_
  rw [Arrays.node_c_array (V3 m ρ) c]
  show cellC (Arrays.nodeGates (V3 m ρ) c) (V3 m ρ c main_call0_v33) (V3 m ρ c main_call0_v25) = _
  rw [gates_eq, flagcol, cred, Cert.ReferenceIdeal.Layers.ref_c]

/-- The new hidden state. -/
theorem result_h : W4 m ρ c (Proc.devRef .tc main_v0_0)
    = val_main_v67 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [Arrays.node_h_array (V3 m ρ) c]
  show cellH (Arrays.nodeGates (V3 m ρ) c) (cellC (Arrays.nodeGates (V3 m ρ) c) (V3 m ρ c main_call0_v33) (V3 m ρ c main_call0_v25)) = _
  rw [gates_eq, flagcol, cred, ← Cert.ReferenceIdeal.Layers.ref_c, Cert.ReferenceIdeal.Layers.ref_h]

end Cert.KernelIdeal.Result

end
-- ==== Proof.Claims.lean ====
/-
  The five claims.

  The two kernel programs' frames are the generated ones; the reference has no launch, so its frame is its generated
  run with the results dropped. The ideal pass rewrote nothing, so `preserves` asks nothing. For `algebraic` both
  programs are run from memories that agree on the ten arguments: the idealized kernel's run ends with its two
  result arrays at what its four segments leave, which is the reference's two stages of the arguments
  (Proof/KernelValue.lean); the reference's generated run ends with its results at those stages of ITS arguments, and
  the agreement rewrites them into the kernel's. The precondition is never opened: the law that joins the two
  programs — a selection by a flag against arithmetic on the flag's 0/1 value — holds at every extended real.
-/
import proofs.«113256_j30855045054488_1_alg».proof.Defs
import proofs.«113256_j30855045054488_1_alg».proof.Proof.Gen.Pre_finite_inputs
import proofs.«113256_j30855045054488_1_alg».proof.Proof.Gen.Kernel.Frame
import proofs.«113256_j30855045054488_1_alg».proof.Proof.Gen.KernelIdeal.Frame
import proofs.«113256_j30855045054488_1_alg».proof.Proof.KernelRun
import proofs.«113256_j30855045054488_1_alg».proof.Proof.KernelValue
import proofs.«113256_j30855045054488_1_alg».proof.Proof.RefRun
import proofs.«113256_j30855045054488_1_alg».proof.Proof.RefRead

set_option maxRecDepth 16384

noncomputable section

namespace Cert.Proof.Claims

open Idealize.ShloMosaic Idealize.ShloMosaic.TcCoe Idealize.SL.Sem
open Cert.ReferenceIdeal.Read (val_main_v59 val_main_v67 val_main_v59_eq val_main_v67_eq)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Found.run (F := Ideal) m ρ)
    obtain ⟨h0, h1, hargs⟩ := h c
    exact ⟨h0.trans (Cert.KernelIdeal.Result.result_h m ρ c), h1.trans (Cert.KernelIdeal.Result.result_c m ρ c), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8, a9⟩ := hagree c
    refine ⟨h0.trans ?_, h1.trans ?_, hargs⟩
    · rw [val_main_v67_eq, a0, a1, a2, a3, a4, a5, a6, a7, a8, a9]
    · rw [val_main_v59_eq, a0, a1, a2, a3, a4, a5, a6, a7, a8, a9]

end Cert.Proof.Claims

end
-- ==== Proof.lean ====
/- The proof of `Cert.Claim` (proofs.«113256_j30855045054488_1_alg».proof.Defs): a child-sum tree-LSTM cell — an edge launch
   (the children's cell states gated by the forget gate of their hidden states) and a node launch (the three gates and
   the new cell and hidden states), with gathers and per-parent sums on the host around them — against its jnp
   reference, at the extended reals.
   Proof/TreeCell.lean states the cell entry by entry and the one law that joins the two programs (a selection by the
   "has a child" flag is the arithmetic on the flag's 0/1 value, at every extended real); Proof/TreeCellRows.lean that a
   row of each layer depends on the row-indexed operands through that row only; Proof/KernelBodies.lean that the two
   kernel bodies compute those layers on their blocks; Proof/EdgeArray.lean and Proof/NodeArray.lean that the launches'
   blocks tile their arrays, so each output array ends at the layer of the whole entry arrays; Proof/HostChain.lean what
   the host operations leave in the launches' entry arrays, in the reference's own stages; Proof/KernelRun.lean the
   kernel's run with its results kept; Proof/RefLayers.lean the reference's layers as the same functions;
   Proof/Bridge.lean the spellings that differ (a row by reshape or by broadcast, the flag column, the zero rows
   appended); Proof/KernelValue.lean the kernel's results as the reference's stages; Proof/Claims.lean the five claims,
   assembled here behind the witnesses of the programs' stated facts (the generated Proof/Gen/ instances). -/
import proofs.«113256_j30855045054488_1_alg».proof.Defs
import proofs.«113256_j30855045054488_1_alg».proof.Proof.Gen.Kernel
import proofs.«113256_j30855045054488_1_alg».proof.Proof.Gen.KernelIdeal
import proofs.«113256_j30855045054488_1_alg».proof.Proof.Gen.ReferenceIdeal
import proofs.«113256_j30855045054488_1_alg».proof.Proof.Gen.Pre_finite_inputs
import proofs.«113256_j30855045054488_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
